-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x128 : Shape := ⟨2, ![100000, 128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_arg7 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : IVec S2x1600000 32) (main_arg1 : FVec F S100000x128 .f32) (main_arg2 : FVec F S3x128x128 .f32) (main_arg3 : FVec F S3x128 .f32) (main_arg4 : FVec F S3x128 .f32) (main_arg5 : FVec F S3x128 .f32) (main_arg6 : FVec F S3x128 .f32) (main_arg7 : FVec F S3x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_v13 main_v16
-- ==== Kernel.lean ====
abbrev S2x1600000 : Shape := ⟨2, ![2, 1600000]⟩
abbrev S100000x128 : Shape := ⟨2, ![100000, 128]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S4000x128 : Shape := ⟨2, ![4000, 128]⟩
abbrev S1700000x128 : Shape := ⟨2, ![1700000, 128]⟩
abbrev S1x128 : Shape := ⟨2, ![1, 128]⟩
abbrev S128 : Shape := ⟨1, ![128]⟩

abbrev nBuf : Space → Nat
  | .hbm => 146
  | .vmem => 46
  | .smem => 0
  | _ => 0

abbrev hbmTy0_0 (i : Nat) : BufTy := match i % 128 with
  | 0 => ⟨S2x1600000, .i32⟩
  | 1 => ⟨S100000x128, .f32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S1x128x128, .f32⟩
  | 42 => ⟨S128x128, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S100000x128, .f32⟩
  | 76 => ⟨S1x128x128, .f32⟩
  | 77 => ⟨S128x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S100000x128, .f32⟩
  | 111 => ⟨S1x128x128, .f32⟩
  | 112 => ⟨S128x128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x1, .f32⟩
  | 124 => ⟨S1700000x128, .f32⟩
  | 125 => ⟨S1700000x128, .f32⟩
  | 126 => ⟨S_, .f32⟩
  | 127 => ⟨S100000x128, .f32⟩
  | _ => ⟨S2x1600000, .i32⟩

abbrev hbmTy0_1 (i : Nat) : BufTy := match i % 128 with
  | 0 => ⟨S1700000x1, .i32⟩
  | 1 => ⟨S100000x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S100000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_7 : Ref sig .tc := ⟨.hbm, 79, rfl⟩
abbrev main_v62 : Ref sig .tc := ⟨.hbm, 80, rfl⟩
abbrev main_v63 : Ref sig .tc := ⟨.hbm, 81, rfl⟩
abbrev main_c_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_c_10 : Ref sig .tc := ⟨.hbm, 114, rfl⟩
abbrev main_v94 : Ref sig .tc := ⟨.hbm, 115, rfl⟩
abbrev main_v95 : Ref sig .tc := ⟨.hbm, 116, rfl⟩
abbrev main_c_11 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_12 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc5_stg7_0 : Ref sig .tc := ⟨.vmem, 44, rfl⟩
abbrev cc5_stg7_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc3_sem7_0 : DmaSem sig := 28
abbrev cc3_sem7_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc5_sem7_0 : DmaSem sig := 44
abbrev cc5_sem7_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S4000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .f32 = 32 ∨ (Rect.block (s := S100000x128) S4000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x128.size a ≤ S100000x128.size a
  hwx5_7 : ∀ i : grid5.Coords, EltTy.bits .f32 = 32 ∨ (Rect.block (s := S100000x128) S4000x128.size (cc5_transform_7 i) (hinb5_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S4000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v90) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v90) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v106) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v117) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v118) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v119) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v121) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v90) S4000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v122) S4000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S2x1600000 : Shape := ⟨2, ![2, 1600000]⟩
abbrev S100000x128 : Shape := ⟨2, ![100000, 128]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩

abbrev nBuf : Space → Nat
  | .hbm => 196
  | .vmem => 0
  | .smem => 0
  | _ => 0

abbrev hbmTy0_0 (i : Nat) : BufTy := match i % 128 with
  | 0 => ⟨S2x1600000, .i32⟩
  | 1 => ⟨S100000x128, .f32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S1x128x128, .f32⟩
  | 42 => ⟨S128x128, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S1x128x128, .f32⟩
  | 93 => ⟨S128x128, .f32⟩
  | 94 => ⟨S100000x128, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S_, .f32⟩
  | 124 => ⟨S128, .f32⟩
  | 125 => ⟨S128, .f32⟩
  | 126 => ⟨S128, .f32⟩
  | 127 => ⟨S1x128, .f32⟩
  | _ => ⟨S2x1600000, .i32⟩

abbrev hbmTy0_1 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000x128, .f32⟩
  | 28 => ⟨S1700000x1, .f32⟩
  | 29 => ⟨S1700000x128, .f32⟩
  | 30 => ⟨S1700000x128, .f32⟩
  | 31 => ⟨S_, .f32⟩
  | 32 => ⟨S100000x128, .f32⟩
  | 33 => ⟨S1700000x1, .i32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S_, .f32⟩
  | 48 => ⟨S128, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_call0_cst : Ref sig .tc := ⟨.hbm, 89, rfl⟩
abbrev main_call0_v0 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_8 : Ref sig .tc := ⟨.hbm, 95, rfl⟩
abbrev main_v75 : Ref sig .tc := ⟨.hbm, 96, rfl⟩
abbrev main_v76 : Ref sig .tc := ⟨.hbm, 97, rfl⟩
abbrev main_c_9 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_10 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_11 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_call1_cst : Ref sig .tc := ⟨.hbm, 140, rfl⟩
abbrev main_call1_v0 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_c_12 : Ref sig .tc := ⟨.hbm, 147, rfl⟩
abbrev main_v121 : Ref sig .tc := ⟨.hbm, 148, rfl⟩
abbrev main_v122 : Ref sig .tc := ⟨.hbm, 149, rfl⟩
abbrev main_c_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_14 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_15 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_call2_cst : Ref sig .tc := ⟨.hbm, 192, rfl⟩
abbrev main_call2_v0 : Ref sig .tc := ⟨.hbm, 193, rfl⟩
abbrev main_v162 : Ref sig .tc := ⟨.hbm, 194, rfl⟩
abbrev main_v163 : Ref sig .tc := ⟨.hbm, 195, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its RESULT named. The program is six kernel regions among stretches of host
  operations; the buffers' contents at the boundaries are a fold from the launch memory (a stretch applies its
  operations, a region replaces its arrays by what its write-backs leave). Every weakly fair execution terminates with
  the result buffer at that fold's last contents, and with the eight argument arrays as launched.
-/
import proofs.«171728_j62122406969972_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the twelve segments, the last thread state read against the final state; the result
    buffer is among the unscoped buffers that state holds, at the last boundary's contents. -/
theorem run : θ_run defs (onTc (τ := τ) (main (F := F))) ⟨m, fun _ => 0, ρ⟩ (fun r => ∀ c : Dev nD,
      r.2.mem ((c.tc : Thread nD τ).loc main_v122) = W12 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v122 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Result

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibNormRelu.lean ====
/-
  Inference-time batch normalisation followed by a clamp at zero, optionally with a residual added, over the
  extended reals. Entry `(i, j)` of the result is
  `max (((a (i, j) + b j) - μ j) · rsqrt (σ j + ε) · γ j + β j) 0`   (plus `x (i, j)` with a residual),
  where the five per-column parameters are vectors of length `N` and `ε` is a float word. Two spellings of it are
  read at an index: a body over a BLOCK of rows whose parameters are `[1, N]` rows broadcast down the block, and host
  code whose parameters are `[N]` vectors broadcast to a row and then down the rows. Generic in the extents.
-/
import Idealize.ShloMosaic.PureOps.Ideal
import Idealize.ShloMosaic.Lib.Pipeline.Value
import Idealize.ShloMosaic.Lib.ValueIdx
import Idealize.ShloMosaic.Lib.ValueLayout
import proofs.«171728_j62122406969972_1_alg».proof.Proof.LibBroadcast

noncomputable section

namespace Cert.NormRelu

open Idealize.ShloMosaic Idealize.ShloMosaic.ValueIdx

variable {M N : Nat}

/-- The stage as ONE function of the array and the five per-column vectors. -/
def normRelu (eps : BitVec 32) (A : (⟨2, ![M, N]⟩ : Shape).Idx → EReal)
    (b g be mu va : (⟨1, ![N]⟩ : Shape).Idx → EReal) : (⟨2, ![M, N]⟩ : Shape).Idx → EReal :=
  fun i => max (((A i + b (ix1 (i 1))) - mu (ix1 (i 1))) * Ideal.rsqrt (va (ix1 (i 1)) + Ideal.ofBits .f32 eps)
      * g (ix1 (i 1)) + be (ix1 (i 1))) (Ideal.ofBits .f32 0x00000000#32)

/-- The stage with a residual array added after the clamp. -/
def normReluRes (eps : BitVec 32) (A : (⟨2, ![M, N]⟩ : Shape).Idx → EReal)
    (b g be mu va : (⟨1, ![N]⟩ : Shape).Idx → EReal) (X : (⟨2, ![M, N]⟩ : Shape).Idx → EReal) :
    (⟨2, ![M, N]⟩ : Shape).Idx → EReal :=
  fun i => normRelu eps A b g be mu va i + X i

/-- Adding an array entrywise to the stage is the stage with that residual. -/
theorem addf_normRelu (eps : BitVec 32) (A : FVec Ideal ⟨2, ![M, N]⟩ .f32) (b g be mu va : FVec Ideal ⟨1, ![N]⟩ .f32)
    (X : FVec Ideal ⟨2, ![M, N]⟩ .f32) :
    addf (normRelu eps A b g be mu va) X = normReluRes eps A b g be mu va X := rfl

/-- The body over a block of `M` rows: the block and five `[1, N]` rows, each row cast to itself and broadcast down
    the block; bias added, mean subtracted, scaled by the reciprocal root of variance plus `ε`, by the gain, shifted,
    clamped at zero. -/
def blockTerm (eps : BitVec 32)
    (hs : (⟨2, ![M, N]⟩ : Shape).ShapeCasts ⟨2, ![M, N]⟩) (hr : (⟨2, ![1, N]⟩ : Shape).ShapeCasts ⟨2, ![1, N]⟩)
    (hb : (⟨2, ![1, N]⟩ : Shape).Broadcasts ⟨2, ![M, N]⟩)
    (x0 : FVec Ideal ⟨2, ![M, N]⟩ .f32) (rb rmu rva rg rbe : FVec Ideal ⟨2, ![1, N]⟩ .f32) : FVec Ideal ⟨2, ![M, N]⟩ .f32 :=
  maximumf
    (addf (mulf (mulf (subf (addf (shapeCast ⟨2, ![M, N]⟩ x0 hs) (broadcastTo ⟨2, ![M, N]⟩ (shapeCast ⟨2, ![1, N]⟩ rb hr) hb))
        (broadcastTo ⟨2, ![M, N]⟩ (shapeCast ⟨2, ![1, N]⟩ rmu hr) hb))
      (broadcastTo ⟨2, ![M, N]⟩ (rsqrt (addf (shapeCast ⟨2, ![1, N]⟩ rva hr) (broadcast ⟨2, ![1, N]⟩ (Scalar.ofBits (F := Ideal) .f32 eps)))) hb))
      (broadcastTo ⟨2, ![M, N]⟩ (shapeCast ⟨2, ![1, N]⟩ rg hr) hb))
      (broadcastTo ⟨2, ![M, N]⟩ (shapeCast ⟨2, ![1, N]⟩ rbe hr) hb))
    (broadcast ⟨2, ![M, N]⟩ (Scalar.ofBits (F := Ideal) .f32 0x00000000#32))

/-- The body at `(p, q)`: the formula over the block's entry and the rows' entries at column `q`. -/
theorem blockTerm_apply (eps : BitVec 32)
    (hs : (⟨2, ![M, N]⟩ : Shape).ShapeCasts ⟨2, ![M, N]⟩) (hr : (⟨2, ![1, N]⟩ : Shape).ShapeCasts ⟨2, ![1, N]⟩)
    (hb : (⟨2, ![1, N]⟩ : Shape).Broadcasts ⟨2, ![M, N]⟩)
    (x0 : FVec Ideal ⟨2, ![M, N]⟩ .f32) (rb rmu rva rg rbe : FVec Ideal ⟨2, ![1, N]⟩ .f32) (p : Fin M) (q : Fin N) :
    blockTerm eps hs hr hb x0 rb rmu rva rg rbe (ix2 p q)
      = max (((x0 (ix2 p q) + rb (ix2 (0 : Fin 1) q)) - rmu (ix2 (0 : Fin 1) q))
          * Ideal.rsqrt (rva (ix2 (0 : Fin 1) q) + Ideal.ofBits .f32 eps) * rg (ix2 (0 : Fin 1) q) + rbe (ix2 (0 : Fin 1) q))
          (Ideal.ofBits .f32 0x00000000#32) := by
  unfold blockTerm
  rw [shapeCast_self, shapeCast_self, shapeCast_self, shapeCast_self, shapeCast_self, shapeCast_self]
  simp only [maximumf_apply, addf_apply, mulf_apply, subf_apply, broadcast_apply, broadcastTo_1b_ab_apply]
  rfl

/-- A block's entry is the whole array's: when row `p` of the block is row `i 0` of the array, the column is `i 1`, and
    each row holds its vector, the body at `(p, q)` is the stage at `i`. -/
theorem blockTerm_eq {M' : Nat} (eps : BitVec 32)
    (hs : (⟨2, ![M', N]⟩ : Shape).ShapeCasts ⟨2, ![M', N]⟩) (hr : (⟨2, ![1, N]⟩ : Shape).ShapeCasts ⟨2, ![1, N]⟩)
    (hb : (⟨2, ![1, N]⟩ : Shape).Broadcasts ⟨2, ![M', N]⟩)
    (A : (⟨2, ![M, N]⟩ : Shape).Idx → EReal) (b g be mu va : (⟨1, ![N]⟩ : Shape).Idx → EReal)
    (x0 : FVec Ideal ⟨2, ![M', N]⟩ .f32) (rb rmu rva rg rbe : FVec Ideal ⟨2, ![1, N]⟩ .f32)
    (p : Fin M') (q : Fin N) (i : (⟨2, ![M, N]⟩ : Shape).Idx) (hq : i 1 = q)
    (h0 : x0 (ix2 p q) = A i) (hb' : rb (ix2 (0 : Fin 1) q) = b (ix1 q)) (hmu : rmu (ix2 (0 : Fin 1) q) = mu (ix1 q))
    (hva : rva (ix2 (0 : Fin 1) q) = va (ix1 q)) (hg : rg (ix2 (0 : Fin 1) q) = g (ix1 q))
    (hbe : rbe (ix2 (0 : Fin 1) q) = be (ix1 q)) :
    blockTerm eps hs hr hb x0 rb rmu rva rg rbe (ix2 p q) = normRelu eps A b g be mu va i := by
  rw [blockTerm_apply, h0, hb', hmu, hva, hg, hbe]
  unfold normRelu
  rw [hq]

/-- The same at any index `j` of the block. -/
theorem blockTerm_eq_at {M' : Nat} (eps : BitVec 32)
    (hs : (⟨2, ![M', N]⟩ : Shape).ShapeCasts ⟨2, ![M', N]⟩) (hr : (⟨2, ![1, N]⟩ : Shape).ShapeCasts ⟨2, ![1, N]⟩)
    (hb : (⟨2, ![1, N]⟩ : Shape).Broadcasts ⟨2, ![M', N]⟩)
    (A : (⟨2, ![M, N]⟩ : Shape).Idx → EReal) (b g be mu va : (⟨1, ![N]⟩ : Shape).Idx → EReal)
    (x0 : FVec Ideal ⟨2, ![M', N]⟩ .f32) (rb rmu rva rg rbe : FVec Ideal ⟨2, ![1, N]⟩ .f32)
    (j : (⟨2, ![M', N]⟩ : Shape).Idx) (i : (⟨2, ![M, N]⟩ : Shape).Idx) (hq : i 1 = j 1)
    (h0 : x0 j = A i) (hb' : rb (ix2 (0 : Fin 1) (j 1)) = b (ix1 (j 1))) (hmu : rmu (ix2 (0 : Fin 1) (j 1)) = mu (ix1 (j 1)))
    (hva : rva (ix2 (0 : Fin 1) (j 1)) = va (ix1 (j 1))) (hg : rg (ix2 (0 : Fin 1) (j 1)) = g (ix1 (j 1)))
    (hbe : rbe (ix2 (0 : Fin 1) (j 1)) = be (ix1 (j 1))) :
    blockTerm eps hs hr hb x0 rb rmu rva rg rbe j = normRelu eps A b g be mu va i := by
  obtain ⟨p, q, rfl⟩ : ∃ (p : Fin M') (q : Fin N), j = ix2 p q := ⟨j 0, j 1, eq_ix2 j⟩
  exact blockTerm_eq eps hs hr hb A b g be mu va x0 rb rmu rva rg rbe p q i hq h0 hb' hmu hva hg hbe

/-- The body with a residual block added after the clamp, at any index `j` of the block: the stage with the residual
    array's entry added. -/
theorem blockTermRes_eq_at {M' : Nat} (eps : BitVec 32)
    (hs : (⟨2, ![M', N]⟩ : Shape).ShapeCasts ⟨2, ![M', N]⟩) (hr : (⟨2, ![1, N]⟩ : Shape).ShapeCasts ⟨2, ![1, N]⟩)
    (hb : (⟨2, ![1, N]⟩ : Shape).Broadcasts ⟨2, ![M', N]⟩)
    (A : (⟨2, ![M, N]⟩ : Shape).Idx → EReal) (b g be mu va : (⟨1, ![N]⟩ : Shape).Idx → EReal)
    (X : (⟨2, ![M, N]⟩ : Shape).Idx → EReal)
    (x0 : FVec Ideal ⟨2, ![M', N]⟩ .f32) (rb rmu rva rg rbe : FVec Ideal ⟨2, ![1, N]⟩ .f32) (x6 : FVec Ideal ⟨2, ![M', N]⟩ .f32)
    (j : (⟨2, ![M', N]⟩ : Shape).Idx) (i : (⟨2, ![M, N]⟩ : Shape).Idx) (hq : i 1 = j 1)
    (h0 : x0 j = A i) (hb' : rb (ix2 (0 : Fin 1) (j 1)) = b (ix1 (j 1))) (hmu : rmu (ix2 (0 : Fin 1) (j 1)) = mu (ix1 (j 1)))
    (hva : rva (ix2 (0 : Fin 1) (j 1)) = va (ix1 (j 1))) (hg : rg (ix2 (0 : Fin 1) (j 1)) = g (ix1 (j 1)))
    (hbe : rbe (ix2 (0 : Fin 1) (j 1)) = be (ix1 (j 1))) (h6 : x6 j = X i) :
    addf (blockTerm eps hs hr hb x0 rb rmu rva rg rbe) (shapeCast ⟨2, ![M', N]⟩ x6 hs) j
      = normReluRes eps A b g be mu va X i := by
  rw [shapeCast_self]
  show blockTerm eps hs hr hb x0 rb rmu rva rg rbe j + x6 j = normRelu eps A b g be mu va i + X i
  rw [blockTerm_eq_at eps hs hr hb A b g be mu va x0 rb rmu rva rg rbe j i hq h0 hb' hmu hva hg hbe, h6]

/-- Host code: each parameter vector broadcast to a row and then down the rows; the same arithmetic with the host's
    reciprocal root; clamped against a splat zero. -/
def hostTerm (eps : BitVec 32)
    (h1 : (⟨1, ![N]⟩ : Shape).BroadcastsInDim ⟨2, ![1, N]⟩ ![1])
    (h2 : (⟨2, ![1, N]⟩ : Shape).BroadcastsInDim ⟨2, ![M, N]⟩ ![0, 1])
    (he : (⟨0, ![]⟩ : Shape).BroadcastsInDim ⟨1, ![N]⟩ (![] : Fin 0 → Fin 1))
    (hz : (⟨0, ![]⟩ : Shape).BroadcastsInDim ⟨2, ![M, N]⟩ (![] : Fin 0 → Fin 2))
    (A : FVec Ideal ⟨2, ![M, N]⟩ .f32) (b g be mu va : FVec Ideal ⟨1, ![N]⟩ .f32) : FVec Ideal ⟨2, ![M, N]⟩ .f32 :=
  maximumf
    (addf (mulf (mulf (subf (addf A (broadcastInDim ⟨2, ![M, N]⟩ ![0, 1] h2 (broadcastInDim ⟨2, ![1, N]⟩ ![1] h1 b)))
        (broadcastInDim ⟨2, ![M, N]⟩ ![0, 1] h2 (broadcastInDim ⟨2, ![1, N]⟩ ![1] h1 mu)))
      (broadcastInDim ⟨2, ![M, N]⟩ ![0, 1] h2 (broadcastInDim ⟨2, ![1, N]⟩ ![1] h1
        (Host.rsqrt (addf va (broadcastInDim ⟨1, ![N]⟩ ![] he (constant (F := Ideal) ⟨0, ![]⟩ .f32 eps)))))))
      (broadcastInDim ⟨2, ![M, N]⟩ ![0, 1] h2 (broadcastInDim ⟨2, ![1, N]⟩ ![1] h1 g)))
      (broadcastInDim ⟨2, ![M, N]⟩ ![0, 1] h2 (broadcastInDim ⟨2, ![1, N]⟩ ![1] h1 be)))
    (broadcastInDim ⟨2, ![M, N]⟩ ![] hz (constant (F := Ideal) ⟨0, ![]⟩ .f32 0x00000000#32))

/-- The host code IS the stage. -/
theorem hostTerm_eq (eps : BitVec 32)
    (h1 : (⟨1, ![N]⟩ : Shape).BroadcastsInDim ⟨2, ![1, N]⟩ ![1])
    (h2 : (⟨2, ![1, N]⟩ : Shape).BroadcastsInDim ⟨2, ![M, N]⟩ ![0, 1])
    (he : (⟨0, ![]⟩ : Shape).BroadcastsInDim ⟨1, ![N]⟩ (![] : Fin 0 → Fin 1))
    (hz : (⟨0, ![]⟩ : Shape).BroadcastsInDim ⟨2, ![M, N]⟩ (![] : Fin 0 → Fin 2))
    (A : FVec Ideal ⟨2, ![M, N]⟩ .f32) (b g be mu va : FVec Ideal ⟨1, ![N]⟩ .f32) :
    hostTerm eps h1 h2 he hz A b g be mu va = normRelu eps A b g be mu va := by
  funext i
  obtain ⟨p, q, rfl⟩ : ∃ (p : Fin M) (q : Fin N), i = ix2 p q := ⟨i 0, i 1, eq_ix2 i⟩
  unfold hostTerm
  simp only [maximumf_apply, addf_apply, mulf_apply, subf_apply]
  rw [Cert.Layout.rows_of_vec_apply b h1 h2 p q, Cert.Layout.rows_of_vec_apply mu h1 h2 p q,
    Cert.Layout.rows_of_vec_apply _ h1 h2 p q, Cert.Layout.rows_of_vec_apply g h1 h2 p q,
    Cert.Layout.rows_of_vec_apply be h1 h2 p q]
  rfl

end Cert.NormRelu

end
-- ==== Proof.RegionsProd.lean ====
/-
  The three product regions of the idealized kernel, each at a PARAMETER `V` (the buffers as the region finds them):
  the grid has 25 points, point `t` multiplies rows `4000 t … 4000 t + 3999` of the left array by the whole
  [128, 128] weight matrix and writes those rows of the result. So the result array ends holding the product of the two
  arrays: entry (i, j) is `∑ k, x (i, k) · w (k, j)`.
-/
import proofs.«171728_j62122406969972_1_alg».proof.Proof.Gen.KernelIdeal.Frame
import proofs.«171728_j62122406969972_1_alg».proof.Proof.LibMatProd
import proofs.«171728_j62122406969972_1_alg».proof.Proof.LibNormRelu
import Idealize.ShloMosaic.Lib.Pipeline.Value
import Idealize.ShloMosaic.Lib.ValueIdx
import Idealize.ShloMosaic.PureOps.Ideal.Laws

set_option maxRecDepth 16384

noncomputable section

namespace Cert.KernelIdeal.RegionsProd

open Idealize.ShloMosaic Idealize.ShloMosaic.TcCoe Idealize.SL.Sem Idealize.ShloMosaic.ValueIdx
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- A block's entry from the whole arrays' entries: row `j 0` of the left block is row `i 0` of the left array, and
    column `j 1` of the right block is column `i 1` of the right array. -/
theorem prod_rows_eq {M K N M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (j : (⟨2, ![M', N']⟩ : Shape).Idx) (i : (⟨2, ![M, N]⟩ : Shape).Idx)
    (h0 : ∀ k : Fin K, A' (ix2 (j 0) k) = A (ix2 (i 0) k)) (h1 : ∀ k : Fin K, B' (ix2 k (j 1)) = B (ix2 k (i 1))) :
    Cert.MatProd.prod A' B' j = Cert.MatProd.prod A B i :=
  Cert.MatProd.prod_block_eq A B A' B' (j 0) (j 1) i h0 h1

theorem hz : (![0, 0] : Fin 2 → Nat) = fun _ => 0 := funext fun a => by fin_cases a <;> rfl

/-! ## Region 0: a row block of the product -/

/-- The body's value: the product of the block of rows with the weight matrix (a change of float format is the
    identity over the extended reals, and the accumulator starts at zero). -/
theorem pay0_eq (x0 : Vec Ideal S4000x128 .f32) (x1 : Vec Ideal S128x128 .f32) :
    k0_pay1 x0 x1 = Cert.MatProd.prod (M := 4000) (K := 128) (N := 128) x0 x1 := by
  unfold k0_pay1
  simp only [shapeCast_self]
  exact Cert.MatProd.matmul_plain_zero_eq (M := 4000) (K := 128) (N := 128) none _ _

/-- The index maps over the grid: point `t` takes rows `4000 t …` of the left operand and of the result, and the
    whole weight matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0 (c : Dev nD) (t : Fin cfg0.N) :
    (dat0 V c).flushed 2 t = ((cfg0.win 2).blk t).view.read (Elt Ideal)
      (Cert.MatProd.prod (M := 100000) (K := 128) (N := 128) (V c main_arg1) (V c main_v28)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  rw [pay0_eq]
  obtain ⟨e0, e1, e2, e3, e4, e5⟩ := idx_facts0 t
  funext j
  show Cert.MatProd.prod (M := 4000) (K := 128) (N := 128)
      (fun y => V c main_arg1 (((cfg0.win 0).blk t).view.emb y)) (fun y => V c main_v28 (((cfg0.win 1).blk t).view.emb y)) j
    = Cert.MatProd.prod (M := 100000) (K := 128) (N := 128) (V c main_arg1) (V c main_v28) (((cfg0.win 2).blk t).view.emb j)
  refine prod_rows_eq (M := 100000) (K := 128) (N := 128) (M' := 4000) (N' := 128) (V c main_arg1) (V c main_v28) _ _ j _ (fun k => ?_) (fun k => ?_)
  · refine congrArg (V c main_arg1) (funext fun a => Fin.ext ?_)
    match a with
    | ⟨0, _⟩ => show win0_0.index t (0 : Fin 2) * 4000 + 1 * (j 0).val = win0_2.index t (0 : Fin 2) * 4000 + 1 * (j 0).val; rw [e0, e4]
    | ⟨1, _⟩ => show win0_0.index t (1 : Fin 2) * 128 + 1 * k.val = k.val; rw [e1]; omega
  · refine congrArg (V c main_v28) (funext fun a => Fin.ext ?_)
    match a with
    | ⟨0, _⟩ => show win0_1.index t (0 : Fin 2) * 128 + 1 * k.val = k.val; rw [e2]; omega
    | ⟨1, _⟩ => show win0_1.index t (1 : Fin 2) * 128 + 1 * (j 1).val = win0_2.index t (1 : Fin 2) * 128 + 1 * (j 1).val; rw [e3, e5]

/-- Every row of the result lies in the block of the point `row / 4000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  obtain ⟨t, ht⟩ : ∃ t : Fin cfg0.N, t.val = (i 0).val / 4000 :=
    ⟨⟨(i 0).val / 4000, by show (i 0).val / 4000 < grid0.N; omega⟩, rfl⟩
  obtain ⟨e0, e1, e2, e3, e4, e5⟩ := idx_facts0 t
  refine ⟨t, flush0_2 t, ?_⟩
  show i ∈ ((View.whole main_v29).slice (win0_2.rect t)).set
  rw [View.set_slice_whole, Rect.mem_set_unit]
  intro a
  match a with
  | ⟨0, _⟩ =>
    show win0_2.index t (0 : Fin 2) * 4000 ≤ (i 0).val ∧ (i 0).val < win0_2.index t (0 : Fin 2) * 4000 + 4000
    rw [e4, ht]; omega
  | ⟨1, _⟩ =>
    show win0_2.index t (1 : Fin 2) * 128 ≤ (i 1).val ∧ (i 1).val < win0_2.index t (1 : Fin 2) * 128 + 128
    rw [e5]; omega

/-- THE RESULT ARRAY of region 0: the product of the two arrays the region finds. -/
theorem final0 (c : Dev nD) :
    (dat0 V c).arrAt 2 cfg0.N = Cert.MatProd.prod (M := 100000) (K := 128) (N := 128) (V c main_arg1) (V c main_v28) :=
  (dat0 V c).arrAt_eq_of_cover 2 _ (fun t _ => flushed0 V c t) (cover0)

/-! ## Region 2: a row block of the product -/

/-- The body's value: the product of the block of rows with the weight matrix (a change of float format is the
    identity over the extended reals, and the accumulator starts at zero). -/
theorem pay2_eq (x0 : Vec Ideal S4000x128 .f32) (x1 : Vec Ideal S128x128 .f32) :
    k2_pay1 x0 x1 = Cert.MatProd.prod (M := 4000) (K := 128) (N := 128) x0 x1 := by
  unfold k2_pay1
  simp only [shapeCast_self]
  exact Cert.MatProd.matmul_plain_zero_eq (M := 4000) (K := 128) (N := 128) none _ _

/-- The index maps over the grid: point `t` takes rows `4000 t …` of the left operand and of the result, and the
    whole weight matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed2 (c : Dev nD) (t : Fin cfg2.N) :
    (dat2 V c).flushed 2 t = ((cfg2.win 2).blk t).view.read (Elt Ideal)
      (Cert.MatProd.prod (M := 100000) (K := 128) (N := 128) (V c main_v58) (V c main_v60)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  rw [pay2_eq]
  obtain ⟨e0, e1, e2, e3, e4, e5⟩ := idx_facts2 t
  funext j
  show Cert.MatProd.prod (M := 4000) (K := 128) (N := 128)
      (fun y => V c main_v58 (((cfg2.win 0).blk t).view.emb y)) (fun y => V c main_v60 (((cfg2.win 1).blk t).view.emb y)) j
    = Cert.MatProd.prod (M := 100000) (K := 128) (N := 128) (V c main_v58) (V c main_v60) (((cfg2.win 2).blk t).view.emb j)
  refine prod_rows_eq (M := 100000) (K := 128) (N := 128) (M' := 4000) (N' := 128) (V c main_v58) (V c main_v60) _ _ j _ (fun k => ?_) (fun k => ?_)
  · refine congrArg (V c main_v58) (funext fun a => Fin.ext ?_)
    match a with
    | ⟨0, _⟩ => show win2_0.index t (0 : Fin 2) * 4000 + 1 * (j 0).val = win2_2.index t (0 : Fin 2) * 4000 + 1 * (j 0).val; rw [e0, e4]
    | ⟨1, _⟩ => show win2_0.index t (1 : Fin 2) * 128 + 1 * k.val = k.val; rw [e1]; omega
  · refine congrArg (V c main_v60) (funext fun a => Fin.ext ?_)
    match a with
    | ⟨0, _⟩ => show win2_1.index t (0 : Fin 2) * 128 + 1 * k.val = k.val; rw [e2]; omega
    | ⟨1, _⟩ => show win2_1.index t (1 : Fin 2) * 128 + 1 * (j 1).val = win2_2.index t (1 : Fin 2) * 128 + 1 * (j 1).val; rw [e3, e5]

/-- Every row of the result lies in the block of the point `row / 4000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 25 := N_2
  obtain ⟨t, ht⟩ : ∃ t : Fin cfg2.N, t.val = (i 0).val / 4000 :=
    ⟨⟨(i 0).val / 4000, by show (i 0).val / 4000 < grid2.N; omega⟩, rfl⟩
  obtain ⟨e0, e1, e2, e3, e4, e5⟩ := idx_facts2 t
  refine ⟨t, flush2_2 t, ?_⟩
  show i ∈ ((View.whole main_v61).slice (win2_2.rect t)).set
  rw [View.set_slice_whole, Rect.mem_set_unit]
  intro a
  match a with
  | ⟨0, _⟩ =>
    show win2_2.index t (0 : Fin 2) * 4000 ≤ (i 0).val ∧ (i 0).val < win2_2.index t (0 : Fin 2) * 4000 + 4000
    rw [e4, ht]; omega
  | ⟨1, _⟩ =>
    show win2_2.index t (1 : Fin 2) * 128 ≤ (i 1).val ∧ (i 1).val < win2_2.index t (1 : Fin 2) * 128 + 128
    rw [e5]; omega

/-- THE RESULT ARRAY of region 2: the product of the two arrays the region finds. -/
theorem final2 (c : Dev nD) :
    (dat2 V c).arrAt 2 cfg2.N = Cert.MatProd.prod (M := 100000) (K := 128) (N := 128) (V c main_v58) (V c main_v60) :=
  (dat2 V c).arrAt_eq_of_cover 2 _ (fun t _ => flushed2 V c t) (cover2)

/-! ## Region 4: a row block of the product -/

/-- The body's value: the product of the block of rows with the weight matrix (a change of float format is the
    identity over the extended reals, and the accumulator starts at zero). -/
theorem pay4_eq (x0 : Vec Ideal S4000x128 .f32) (x1 : Vec Ideal S128x128 .f32) :
    k4_pay1 x0 x1 = Cert.MatProd.prod (M := 4000) (K := 128) (N := 128) x0 x1 := by
  unfold k4_pay1
  simp only [shapeCast_self]
  exact Cert.MatProd.matmul_plain_zero_eq (M := 4000) (K := 128) (N := 128) none _ _

/-- The index maps over the grid: point `t` takes rows `4000 t …` of the left operand and of the result, and the
    whole weight matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the region finds them. -/
theorem flushed4 (c : Dev nD) (t : Fin cfg4.N) :
    (dat4 V c).flushed 2 t = ((cfg4.win 2).blk t).view.read (Elt Ideal)
      (Cert.MatProd.prod (M := 100000) (K := 128) (N := 128) (V c main_v90) (V c main_v92)) := by
  show (cfg4.win 2).cut (grid4.coords t) ((dat4 V c).after 2 t) = _
  rw [after4_2]
  unfold out4_2
  rw [View.canon_unit_zero hz]
  simp only [View.ld_unit_zero (S := S4000x128) hz, View.ld_unit_zero (S := S128x128) hz]
  rw [pay4_eq]
  obtain ⟨e0, e1, e2, e3, e4, e5⟩ := idx_facts4 t
  funext j
  show Cert.MatProd.prod (M := 4000) (K := 128) (N := 128)
      (fun y => V c main_v90 (((cfg4.win 0).blk t).view.emb y)) (fun y => V c main_v92 (((cfg4.win 1).blk t).view.emb y)) j
    = Cert.MatProd.prod (M := 100000) (K := 128) (N := 128) (V c main_v90) (V c main_v92) (((cfg4.win 2).blk t).view.emb j)
  refine prod_rows_eq (M := 100000) (K := 128) (N := 128) (M' := 4000) (N' := 128) (V c main_v90) (V c main_v92) _ _ j _ (fun k => ?_) (fun k => ?_)
  · refine congrArg (V c main_v90) (funext fun a => Fin.ext ?_)
    match a with
    | ⟨0, _⟩ => show win4_0.index t (0 : Fin 2) * 4000 + 1 * (j 0).val = win4_2.index t (0 : Fin 2) * 4000 + 1 * (j 0).val; rw [e0, e4]
    | ⟨1, _⟩ => show win4_0.index t (1 : Fin 2) * 128 + 1 * k.val = k.val; rw [e1]; omega
  · refine congrArg (V c main_v92) (funext fun a => Fin.ext ?_)
    match a with
    | ⟨0, _⟩ => show win4_1.index t (0 : Fin 2) * 128 + 1 * k.val = k.val; rw [e2]; omega
    | ⟨1, _⟩ => show win4_1.index t (1 : Fin 2) * 128 + 1 * (j 1).val = win4_2.index t (1 : Fin 2) * 128 + 1 * (j 1).val; rw [e3, e5]

/-- Every row of the result lies in the block of the point `row / 4000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 25 := N_4
  obtain ⟨t, ht⟩ : ∃ t : Fin cfg4.N, t.val = (i 0).val / 4000 :=
    ⟨⟨(i 0).val / 4000, by show (i 0).val / 4000 < grid4.N; omega⟩, rfl⟩
  obtain ⟨e0, e1, e2, e3, e4, e5⟩ := idx_facts4 t
  refine ⟨t, flush4_2 t, ?_⟩
  show i ∈ ((View.whole main_v93).slice (win4_2.rect t)).set
  rw [View.set_slice_whole, Rect.mem_set_unit]
  intro a
  match a with
  | ⟨0, _⟩ =>
    show win4_2.index t (0 : Fin 2) * 4000 ≤ (i 0).val ∧ (i 0).val < win4_2.index t (0 : Fin 2) * 4000 + 4000
    rw [e4, ht]; omega
  | ⟨1, _⟩ =>
    show win4_2.index t (1 : Fin 2) * 128 ≤ (i 1).val ∧ (i 1).val < win4_2.index t (1 : Fin 2) * 128 + 128
    rw [e5]; omega

/-- THE RESULT ARRAY of region 4: the product of the two arrays the region finds. -/
theorem final4 (c : Dev nD) :
    (dat4 V c).arrAt 2 cfg4.N = Cert.MatProd.prod (M := 100000) (K := 128) (N := 128) (V c main_v90) (V c main_v92) :=
  (dat4 V c).arrAt_eq_of_cover 2 _ (fun t _ => flushed4 V c t) (cover4)

end Cert.KernelIdeal.RegionsProd

end
-- ==== Proof.RegionsNorm.lean ====
/-
  The three normalisation regions of the idealized kernel, each at a PARAMETER `V` (the buffers as the region finds
  them): the grid has 25 points, point `t` takes rows `4000 t … 4000 t + 3999` of the aggregated array (and of the
  previous layer's array, where there is a residual), the five [1, 128] parameter rows whole, and writes those rows of
  the result: bias added, mean subtracted, scaled by the reciprocal root of variance plus ε and by the gain, shifted,
  clamped at zero, the residual added. So the result array ends holding that stage of the whole arrays.
-/
import proofs.«171728_j62122406969972_1_alg».proof.Proof.Gen.KernelIdeal.Frame
import proofs.«171728_j62122406969972_1_alg».proof.Proof.LibMatProd
import proofs.«171728_j62122406969972_1_alg».proof.Proof.LibNormRelu
import Idealize.ShloMosaic.Lib.Pipeline.Value
import Idealize.ShloMosaic.Lib.ValueIdx
import Idealize.ShloMosaic.PureOps.Ideal.Laws

set_option maxRecDepth 16384

noncomputable section

namespace Cert.KernelIdeal.RegionsNorm

open Idealize.ShloMosaic Idealize.ShloMosaic.TcCoe Idealize.SL.Sem Idealize.ShloMosaic.ValueIdx
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## Region 1: normalise, clamp -/

/-- The body's value is the block formula (its bias row is window 1, gain 2, shift 3, mean 4, variance 5). -/
theorem pay1_eq (x0 : Vec Ideal S4000x128 .f32) (x1 x2 x3 x4 x5 : Vec Ideal S1x128 .f32) :
    k1_pay1 x0 x1 x4 x5 x2 x3 = Cert.NormRelu.blockTerm (M := 4000) (N := 128) 0x3727C5AC#32 shapeCasts_S4000x128_S4000x128 shapeCasts_S1x128_S1x128 broadcasts_S1x128_S4000x128 x0 x1 x4 x5 x2 x3 := rfl

/-- The index maps over the grid: point `t` takes rows `4000 t …` of the big arrays and the whole of each row. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- What point `t` writes back is block `t` of the stage of the arrays as the region finds them, the five rows
    holding the five per-column vectors. -/
theorem flushed1 (c : Dev nD) (b g be mu va : (⟨1, ![128]⟩ : Shape).Idx → EReal)
    (hb : ∀ q : Fin 128, V c main_v53 (ix2 (0 : Fin 1) q) = b (ix1 q)) (hg : ∀ q : Fin 128, V c main_v54 (ix2 (0 : Fin 1) q) = g (ix1 q))
    (hbe : ∀ q : Fin 128, V c main_v55 (ix2 (0 : Fin 1) q) = be (ix1 q)) (hmu : ∀ q : Fin 128, V c main_v56 (ix2 (0 : Fin 1) q) = mu (ix1 q))
    (hva : ∀ q : Fin 128, V c main_v57 (ix2 (0 : Fin 1) q) = va (ix1 q)) (t : Fin cfg1.N) :
    (dat1 V c).flushed 6 t = ((cfg1.win 6).blk t).view.read (Elt Ideal)
      (Cert.NormRelu.normRelu (M := 100000) (N := 128) 0x3727C5AC#32 (V c main_v42) b g be mu va) := by
  show (cfg1.win 6).cut (grid1.coords t) ((dat1 V c).after 6 t) = _
  rw [after1_6]
  unfold out1_6
  rw [View.canon_unit_zero hz]
  simp only [View.ld_unit_zero (S := S4000x128) hz, View.ld_unit_zero (S := S1x128) hz]
  rw [pay1_eq]
  obtain ⟨a0, a1, r10, r11, r20, r21, r30, r31, r40, r41, r50, r51, o0, o1⟩ := idx_facts1 t
  funext j
  show Cert.NormRelu.blockTerm (M := 4000) (N := 128) 0x3727C5AC#32 shapeCasts_S4000x128_S4000x128 shapeCasts_S1x128_S1x128 broadcasts_S1x128_S4000x128 (fun y => V c main_v42 (((cfg1.win 0).blk t).view.emb y)) (fun y => V c main_v53 (((cfg1.win 1).blk t).view.emb y)) (fun y => V c main_v56 (((cfg1.win 4).blk t).view.emb y)) (fun y => V c main_v57 (((cfg1.win 5).blk t).view.emb y)) (fun y => V c main_v54 (((cfg1.win 2).blk t).view.emb y)) (fun y => V c main_v55 (((cfg1.win 3).blk t).view.emb y)) j
    = Cert.NormRelu.normRelu (M := 100000) (N := 128) 0x3727C5AC#32 (V c main_v42) b g be mu va (((cfg1.win 6).blk t).view.emb j)
  refine Cert.NormRelu.blockTerm_eq_at (M := 100000) (N := 128) (M' := 4000) 0x3727C5AC#32 shapeCasts_S4000x128_S4000x128 shapeCasts_S1x128_S1x128 broadcasts_S1x128_S4000x128 (V c main_v42) b g be mu va _ _ _ _ _ _ j _ ?_ ?_ ?_ ?_ ?_ ?_ ?_
  · refine Fin.ext ?_
    show win1_6.index t (1 : Fin 2) * 128 + 1 * (j 1).val = (j 1).val; rw [o1]; omega
  · refine congrArg (V c main_v42) (funext fun a => Fin.ext ?_)
    match a with
    | ⟨0, _⟩ => show win1_0.index t (0 : Fin 2) * 4000 + 1 * (j 0).val = win1_6.index t (0 : Fin 2) * 4000 + 1 * (j 0).val; rw [a0, o0]
    | ⟨1, _⟩ => show win1_0.index t (1 : Fin 2) * 128 + 1 * (j 1).val = win1_6.index t (1 : Fin 2) * 128 + 1 * (j 1).val; rw [a1, o1]
  · refine (congrArg (V c main_v53) (funext fun a => Fin.ext ?_)).trans (hb (j 1))
    match a with
    | ⟨0, _⟩ => show win1_1.index t (0 : Fin 2) * 1 + 1 * 0 = 0; rw [r10]
    | ⟨1, _⟩ => show win1_1.index t (1 : Fin 2) * 128 + 1 * (j 1).val = (j 1).val; rw [r11]; omega
  · refine (congrArg (V c main_v56) (funext fun a => Fin.ext ?_)).trans (hmu (j 1))
    match a with
    | ⟨0, _⟩ => show win1_4.index t (0 : Fin 2) * 1 + 1 * 0 = 0; rw [r40]
    | ⟨1, _⟩ => show win1_4.index t (1 : Fin 2) * 128 + 1 * (j 1).val = (j 1).val; rw [r41]; omega
  · refine (congrArg (V c main_v57) (funext fun a => Fin.ext ?_)).trans (hva (j 1))
    match a with
    | ⟨0, _⟩ => show win1_5.index t (0 : Fin 2) * 1 + 1 * 0 = 0; rw [r50]
    | ⟨1, _⟩ => show win1_5.index t (1 : Fin 2) * 128 + 1 * (j 1).val = (j 1).val; rw [r51]; omega
  · refine (congrArg (V c main_v54) (funext fun a => Fin.ext ?_)).trans (hg (j 1))
    match a with
    | ⟨0, _⟩ => show win1_2.index t (0 : Fin 2) * 1 + 1 * 0 = 0; rw [r20]
    | ⟨1, _⟩ => show win1_2.index t (1 : Fin 2) * 128 + 1 * (j 1).val = (j 1).val; rw [r21]; omega
  · refine (congrArg (V c main_v55) (funext fun a => Fin.ext ?_)).trans (hbe (j 1))
    match a with
    | ⟨0, _⟩ => show win1_3.index t (0 : Fin 2) * 1 + 1 * 0 = 0; rw [r30]
    | ⟨1, _⟩ => show win1_3.index t (1 : Fin 2) * 128 + 1 * (j 1).val = (j 1).val; rw [r31]; omega

/-- Every row of the result lies in the block of the point `row / 4000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 25 := N_1
  obtain ⟨t, ht⟩ : ∃ t : Fin cfg1.N, t.val = (i 0).val / 4000 :=
    ⟨⟨(i 0).val / 4000, by show (i 0).val / 4000 < grid1.N; omega⟩, rfl⟩
  obtain ⟨a0, a1, r10, r11, r20, r21, r30, r31, r40, r41, r50, r51, o0, o1⟩ := idx_facts1 t
  refine ⟨t, flush1_6 t, ?_⟩
  show i ∈ ((View.whole main_v58).slice (win1_6.rect t)).set
  rw [View.set_slice_whole, Rect.mem_set_unit]
  intro a
  match a with
  | ⟨0, _⟩ =>
    show win1_6.index t (0 : Fin 2) * 4000 ≤ (i 0).val ∧ (i 0).val < win1_6.index t (0 : Fin 2) * 4000 + 4000
    rw [o0, ht]; omega
  | ⟨1, _⟩ =>
    show win1_6.index t (1 : Fin 2) * 128 ≤ (i 1).val ∧ (i 1).val < win1_6.index t (1 : Fin 2) * 128 + 128
    rw [o1]; omega

/-- THE RESULT ARRAY of region 1: the stage of the arrays the region finds. -/
theorem final1 (c : Dev nD) (b g be mu va : (⟨1, ![128]⟩ : Shape).Idx → EReal)
    (hb : ∀ q : Fin 128, V c main_v53 (ix2 (0 : Fin 1) q) = b (ix1 q)) (hg : ∀ q : Fin 128, V c main_v54 (ix2 (0 : Fin 1) q) = g (ix1 q))
    (hbe : ∀ q : Fin 128, V c main_v55 (ix2 (0 : Fin 1) q) = be (ix1 q)) (hmu : ∀ q : Fin 128, V c main_v56 (ix2 (0 : Fin 1) q) = mu (ix1 q))
    (hva : ∀ q : Fin 128, V c main_v57 (ix2 (0 : Fin 1) q) = va (ix1 q)) :
    (dat1 V c).arrAt 6 cfg1.N = Cert.NormRelu.normRelu (M := 100000) (N := 128) 0x3727C5AC#32 (V c main_v42) b g be mu va :=
  (dat1 V c).arrAt_eq_of_cover 6 _ (fun t _ => flushed1 V c b g be mu va hb hg hbe hmu hva t) (cover1)

/-! ## Region 3: normalise, clamp, add the residual -/

/-- The body's value is the block formula (its bias row is window 1, gain 2, shift 3, mean 4, variance 5). -/
theorem pay3_eq (x0 : Vec Ideal S4000x128 .f32) (x1 x2 x3 x4 x5 : Vec Ideal S1x128 .f32) (x6 : Vec Ideal S4000x128 .f32) :
    k3_pay1 x0 x1 x4 x5 x2 x3 x6 = addf (Cert.NormRelu.blockTerm (M := 4000) (N := 128) 0x3727C5AC#32 shapeCasts_S4000x128_S4000x128 shapeCasts_S1x128_S1x128 broadcasts_S1x128_S4000x128 x0 x1 x4 x5 x2 x3) (shapeCast S4000x128 x6 shapeCasts_S4000x128_S4000x128) := rfl

/-- The index maps over the grid: point `t` takes rows `4000 t …` of the big arrays and the whole of each row. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0 :=
  (by decide +kernel : ∀ t : Fin grid3.N, _)

/-- What point `t` writes back is block `t` of the stage of the arrays as the region finds them, the five rows
    holding the five per-column vectors. -/
theorem flushed3 (c : Dev nD) (b g be mu va : (⟨1, ![128]⟩ : Shape).Idx → EReal)
    (hb : ∀ q : Fin 128, V c main_v85 (ix2 (0 : Fin 1) q) = b (ix1 q)) (hg : ∀ q : Fin 128, V c main_v86 (ix2 (0 : Fin 1) q) = g (ix1 q))
    (hbe : ∀ q : Fin 128, V c main_v87 (ix2 (0 : Fin 1) q) = be (ix1 q)) (hmu : ∀ q : Fin 128, V c main_v88 (ix2 (0 : Fin 1) q) = mu (ix1 q))
    (hva : ∀ q : Fin 128, V c main_v89 (ix2 (0 : Fin 1) q) = va (ix1 q)) (t : Fin cfg3.N) :
    (dat3 V c).flushed 7 t = ((cfg3.win 7).blk t).view.read (Elt Ideal)
      (Cert.NormRelu.normReluRes (M := 100000) (N := 128) 0x3727C5AC#32 (V c main_v74) b g be mu va (V c main_v58)) := by
  show (cfg3.win 7).cut (grid3.coords t) ((dat3 V c).after 7 t) = _
  rw [after3_7]
  unfold out3_7
  rw [View.canon_unit_zero hz]
  simp only [View.ld_unit_zero (S := S4000x128) hz, View.ld_unit_zero (S := S1x128) hz]
  rw [pay3_eq]
  obtain ⟨a0, a1, r10, r11, r20, r21, r30, r31, r40, r41, r50, r51, x0, x1, o0, o1⟩ := idx_facts3 t
  funext j
  show addf (Cert.NormRelu.blockTerm (M := 4000) (N := 128) 0x3727C5AC#32 shapeCasts_S4000x128_S4000x128 shapeCasts_S1x128_S1x128 broadcasts_S1x128_S4000x128 (fun y => V c main_v74 (((cfg3.win 0).blk t).view.emb y)) (fun y => V c main_v85 (((cfg3.win 1).blk t).view.emb y)) (fun y => V c main_v88 (((cfg3.win 4).blk t).view.emb y)) (fun y => V c main_v89 (((cfg3.win 5).blk t).view.emb y)) (fun y => V c main_v86 (((cfg3.win 2).blk t).view.emb y)) (fun y => V c main_v87 (((cfg3.win 3).blk t).view.emb y))) (shapeCast S4000x128 (fun y => V c main_v58 (((cfg3.win 6).blk t).view.emb y)) shapeCasts_S4000x128_S4000x128) j
    = Cert.NormRelu.normReluRes (M := 100000) (N := 128) 0x3727C5AC#32 (V c main_v74) b g be mu va (V c main_v58) (((cfg3.win 7).blk t).view.emb j)
  refine Cert.NormRelu.blockTermRes_eq_at (M := 100000) (N := 128) (M' := 4000) 0x3727C5AC#32 shapeCasts_S4000x128_S4000x128 shapeCasts_S1x128_S1x128 broadcasts_S1x128_S4000x128 (V c main_v74) b g be mu va (V c main_v58) _ _ _ _ _ _ _ j _ ?_ ?_ ?_ ?_ ?_ ?_ ?_ ?_
  · refine Fin.ext ?_
    show win3_7.index t (1 : Fin 2) * 128 + 1 * (j 1).val = (j 1).val; rw [o1]; omega
  · refine congrArg (V c main_v74) (funext fun a => Fin.ext ?_)
    match a with
    | ⟨0, _⟩ => show win3_0.index t (0 : Fin 2) * 4000 + 1 * (j 0).val = win3_7.index t (0 : Fin 2) * 4000 + 1 * (j 0).val; rw [a0, o0]
    | ⟨1, _⟩ => show win3_0.index t (1 : Fin 2) * 128 + 1 * (j 1).val = win3_7.index t (1 : Fin 2) * 128 + 1 * (j 1).val; rw [a1, o1]
  · refine (congrArg (V c main_v85) (funext fun a => Fin.ext ?_)).trans (hb (j 1))
    match a with
    | ⟨0, _⟩ => show win3_1.index t (0 : Fin 2) * 1 + 1 * 0 = 0; rw [r10]
    | ⟨1, _⟩ => show win3_1.index t (1 : Fin 2) * 128 + 1 * (j 1).val = (j 1).val; rw [r11]; omega
  · refine (congrArg (V c main_v88) (funext fun a => Fin.ext ?_)).trans (hmu (j 1))
    match a with
    | ⟨0, _⟩ => show win3_4.index t (0 : Fin 2) * 1 + 1 * 0 = 0; rw [r40]
    | ⟨1, _⟩ => show win3_4.index t (1 : Fin 2) * 128 + 1 * (j 1).val = (j 1).val; rw [r41]; omega
  · refine (congrArg (V c main_v89) (funext fun a => Fin.ext ?_)).trans (hva (j 1))
    match a with
    | ⟨0, _⟩ => show win3_5.index t (0 : Fin 2) * 1 + 1 * 0 = 0; rw [r50]
    | ⟨1, _⟩ => show win3_5.index t (1 : Fin 2) * 128 + 1 * (j 1).val = (j 1).val; rw [r51]; omega
  · refine (congrArg (V c main_v86) (funext fun a => Fin.ext ?_)).trans (hg (j 1))
    match a with
    | ⟨0, _⟩ => show win3_2.index t (0 : Fin 2) * 1 + 1 * 0 = 0; rw [r20]
    | ⟨1, _⟩ => show win3_2.index t (1 : Fin 2) * 128 + 1 * (j 1).val = (j 1).val; rw [r21]; omega
  · refine (congrArg (V c main_v87) (funext fun a => Fin.ext ?_)).trans (hbe (j 1))
    match a with
    | ⟨0, _⟩ => show win3_3.index t (0 : Fin 2) * 1 + 1 * 0 = 0; rw [r30]
    | ⟨1, _⟩ => show win3_3.index t (1 : Fin 2) * 128 + 1 * (j 1).val = (j 1).val; rw [r31]; omega
  · refine congrArg (V c main_v58) (funext fun a => Fin.ext ?_)
    match a with
    | ⟨0, _⟩ => show win3_6.index t (0 : Fin 2) * 4000 + 1 * (j 0).val = win3_7.index t (0 : Fin 2) * 4000 + 1 * (j 0).val; rw [x0, o0]
    | ⟨1, _⟩ => show win3_6.index t (1 : Fin 2) * 128 + 1 * (j 1).val = win3_7.index t (1 : Fin 2) * 128 + 1 * (j 1).val; rw [x1, o1]

/-- Every row of the result lies in the block of the point `row / 4000`. -/
theorem cover3 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : grid3.N = 25 := N_3
  obtain ⟨t, ht⟩ : ∃ t : Fin cfg3.N, t.val = (i 0).val / 4000 :=
    ⟨⟨(i 0).val / 4000, by show (i 0).val / 4000 < grid3.N; omega⟩, rfl⟩
  obtain ⟨a0, a1, r10, r11, r20, r21, r30, r31, r40, r41, r50, r51, x0, x1, o0, o1⟩ := idx_facts3 t
  refine ⟨t, flush3_7 t, ?_⟩
  show i ∈ ((View.whole main_v90).slice (win3_7.rect t)).set
  rw [View.set_slice_whole, Rect.mem_set_unit]
  intro a
  match a with
  | ⟨0, _⟩ =>
    show win3_7.index t (0 : Fin 2) * 4000 ≤ (i 0).val ∧ (i 0).val < win3_7.index t (0 : Fin 2) * 4000 + 4000
    rw [o0, ht]; omega
  | ⟨1, _⟩ =>
    show win3_7.index t (1 : Fin 2) * 128 ≤ (i 1).val ∧ (i 1).val < win3_7.index t (1 : Fin 2) * 128 + 128
    rw [o1]; omega

/-- THE RESULT ARRAY of region 3: the stage of the arrays the region finds. -/
theorem final3 (c : Dev nD) (b g be mu va : (⟨1, ![128]⟩ : Shape).Idx → EReal)
    (hb : ∀ q : Fin 128, V c main_v85 (ix2 (0 : Fin 1) q) = b (ix1 q)) (hg : ∀ q : Fin 128, V c main_v86 (ix2 (0 : Fin 1) q) = g (ix1 q))
    (hbe : ∀ q : Fin 128, V c main_v87 (ix2 (0 : Fin 1) q) = be (ix1 q)) (hmu : ∀ q : Fin 128, V c main_v88 (ix2 (0 : Fin 1) q) = mu (ix1 q))
    (hva : ∀ q : Fin 128, V c main_v89 (ix2 (0 : Fin 1) q) = va (ix1 q)) :
    (dat3 V c).arrAt 7 cfg3.N = Cert.NormRelu.normReluRes (M := 100000) (N := 128) 0x3727C5AC#32 (V c main_v74) b g be mu va (V c main_v58) :=
  (dat3 V c).arrAt_eq_of_cover 7 _ (fun t _ => flushed3 V c b g be mu va hb hg hbe hmu hva t) (cover3)

/-! ## Region 5: normalise, clamp, add the residual -/

/-- The body's value is the block formula (its bias row is window 1, gain 2, shift 3, mean 4, variance 5). -/
theorem pay5_eq (x0 : Vec Ideal S4000x128 .f32) (x1 x2 x3 x4 x5 : Vec Ideal S1x128 .f32) (x6 : Vec Ideal S4000x128 .f32) :
    k5_pay1 x0 x1 x4 x5 x2 x3 x6 = addf (Cert.NormRelu.blockTerm (M := 4000) (N := 128) 0x3727C5AC#32 shapeCasts_S4000x128_S4000x128 shapeCasts_S1x128_S1x128 broadcasts_S1x128_S4000x128 x0 x1 x4 x5 x2 x3) (shapeCast S4000x128 x6 shapeCasts_S4000x128_S4000x128) := rfl

/-- The index maps over the grid: point `t` takes rows `4000 t …` of the big arrays and the whole of each row. -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = t.val
    ∧ win5_6.index t (1 : Fin 2) = 0
    ∧ win5_7.index t (0 : Fin 2) = t.val
    ∧ win5_7.index t (1 : Fin 2) = 0 :=
  (by decide +kernel : ∀ t : Fin grid5.N, _)

/-- What point `t` writes back is block `t` of the stage of the arrays as the region finds them, the five rows
    holding the five per-column vectors. -/
theorem flushed5 (c : Dev nD) (b g be mu va : (⟨1, ![128]⟩ : Shape).Idx → EReal)
    (hb : ∀ q : Fin 128, V c main_v117 (ix2 (0 : Fin 1) q) = b (ix1 q)) (hg : ∀ q : Fin 128, V c main_v118 (ix2 (0 : Fin 1) q) = g (ix1 q))
    (hbe : ∀ q : Fin 128, V c main_v119 (ix2 (0 : Fin 1) q) = be (ix1 q)) (hmu : ∀ q : Fin 128, V c main_v120 (ix2 (0 : Fin 1) q) = mu (ix1 q))
    (hva : ∀ q : Fin 128, V c main_v121 (ix2 (0 : Fin 1) q) = va (ix1 q)) (t : Fin cfg5.N) :
    (dat5 V c).flushed 7 t = ((cfg5.win 7).blk t).view.read (Elt Ideal)
      (Cert.NormRelu.normReluRes (M := 100000) (N := 128) 0x3727C5AC#32 (V c main_v106) b g be mu va (V c main_v90)) := by
  show (cfg5.win 7).cut (grid5.coords t) ((dat5 V c).after 7 t) = _
  rw [after5_7]
  unfold out5_7
  rw [View.canon_unit_zero hz]
  simp only [View.ld_unit_zero (S := S4000x128) hz, View.ld_unit_zero (S := S1x128) hz]
  rw [pay5_eq]
  obtain ⟨a0, a1, r10, r11, r20, r21, r30, r31, r40, r41, r50, r51, x0, x1, o0, o1⟩ := idx_facts5 t
  funext j
  show addf (Cert.NormRelu.blockTerm (M := 4000) (N := 128) 0x3727C5AC#32 shapeCasts_S4000x128_S4000x128 shapeCasts_S1x128_S1x128 broadcasts_S1x128_S4000x128 (fun y => V c main_v106 (((cfg5.win 0).blk t).view.emb y)) (fun y => V c main_v117 (((cfg5.win 1).blk t).view.emb y)) (fun y => V c main_v120 (((cfg5.win 4).blk t).view.emb y)) (fun y => V c main_v121 (((cfg5.win 5).blk t).view.emb y)) (fun y => V c main_v118 (((cfg5.win 2).blk t).view.emb y)) (fun y => V c main_v119 (((cfg5.win 3).blk t).view.emb y))) (shapeCast S4000x128 (fun y => V c main_v90 (((cfg5.win 6).blk t).view.emb y)) shapeCasts_S4000x128_S4000x128) j
    = Cert.NormRelu.normReluRes (M := 100000) (N := 128) 0x3727C5AC#32 (V c main_v106) b g be mu va (V c main_v90) (((cfg5.win 7).blk t).view.emb j)
  refine Cert.NormRelu.blockTermRes_eq_at (M := 100000) (N := 128) (M' := 4000) 0x3727C5AC#32 shapeCasts_S4000x128_S4000x128 shapeCasts_S1x128_S1x128 broadcasts_S1x128_S4000x128 (V c main_v106) b g be mu va (V c main_v90) _ _ _ _ _ _ _ j _ ?_ ?_ ?_ ?_ ?_ ?_ ?_ ?_
  · refine Fin.ext ?_
    show win5_7.index t (1 : Fin 2) * 128 + 1 * (j 1).val = (j 1).val; rw [o1]; omega
  · refine congrArg (V c main_v106) (funext fun a => Fin.ext ?_)
    match a with
    | ⟨0, _⟩ => show win5_0.index t (0 : Fin 2) * 4000 + 1 * (j 0).val = win5_7.index t (0 : Fin 2) * 4000 + 1 * (j 0).val; rw [a0, o0]
    | ⟨1, _⟩ => show win5_0.index t (1 : Fin 2) * 128 + 1 * (j 1).val = win5_7.index t (1 : Fin 2) * 128 + 1 * (j 1).val; rw [a1, o1]
  · refine (congrArg (V c main_v117) (funext fun a => Fin.ext ?_)).trans (hb (j 1))
    match a with
    | ⟨0, _⟩ => show win5_1.index t (0 : Fin 2) * 1 + 1 * 0 = 0; rw [r10]
    | ⟨1, _⟩ => show win5_1.index t (1 : Fin 2) * 128 + 1 * (j 1).val = (j 1).val; rw [r11]; omega
  · refine (congrArg (V c main_v120) (funext fun a => Fin.ext ?_)).trans (hmu (j 1))
    match a with
    | ⟨0, _⟩ => show win5_4.index t (0 : Fin 2) * 1 + 1 * 0 = 0; rw [r40]
    | ⟨1, _⟩ => show win5_4.index t (1 : Fin 2) * 128 + 1 * (j 1).val = (j 1).val; rw [r41]; omega
  · refine (congrArg (V c main_v121) (funext fun a => Fin.ext ?_)).trans (hva (j 1))
    match a with
    | ⟨0, _⟩ => show win5_5.index t (0 : Fin 2) * 1 + 1 * 0 = 0; rw [r50]
    | ⟨1, _⟩ => show win5_5.index t (1 : Fin 2) * 128 + 1 * (j 1).val = (j 1).val; rw [r51]; omega
  · refine (congrArg (V c main_v118) (funext fun a => Fin.ext ?_)).trans (hg (j 1))
    match a with
    | ⟨0, _⟩ => show win5_2.index t (0 : Fin 2) * 1 + 1 * 0 = 0; rw [r20]
    | ⟨1, _⟩ => show win5_2.index t (1 : Fin 2) * 128 + 1 * (j 1).val = (j 1).val; rw [r21]; omega
  · refine (congrArg (V c main_v119) (funext fun a => Fin.ext ?_)).trans (hbe (j 1))
    match a with
    | ⟨0, _⟩ => show win5_3.index t (0 : Fin 2) * 1 + 1 * 0 = 0; rw [r30]
    | ⟨1, _⟩ => show win5_3.index t (1 : Fin 2) * 128 + 1 * (j 1).val = (j 1).val; rw [r31]; omega
  · refine congrArg (V c main_v90) (funext fun a => Fin.ext ?_)
    match a with
    | ⟨0, _⟩ => show win5_6.index t (0 : Fin 2) * 4000 + 1 * (j 0).val = win5_7.index t (0 : Fin 2) * 4000 + 1 * (j 0).val; rw [x0, o0]
    | ⟨1, _⟩ => show win5_6.index t (1 : Fin 2) * 128 + 1 * (j 1).val = win5_7.index t (1 : Fin 2) * 128 + 1 * (j 1).val; rw [x1, o1]

/-- Every row of the result lies in the block of the point `row / 4000`. -/
theorem cover5 (i : S100000x128.Idx) :
    ∃ t : Fin cfg5.N, (cfg5.win 7).flush t = true ∧ i ∈ ((cfg5.win 7).blk t).view.set := by
  have hi0 : (i 0).val < 100000 := (i 0).isLt
  have hi1 : (i 1).val < 128 := (i 1).isLt
  have hN : grid5.N = 25 := N_5
  obtain ⟨t, ht⟩ : ∃ t : Fin cfg5.N, t.val = (i 0).val / 4000 :=
    ⟨⟨(i 0).val / 4000, by show (i 0).val / 4000 < grid5.N; omega⟩, rfl⟩
  obtain ⟨a0, a1, r10, r11, r20, r21, r30, r31, r40, r41, r50, r51, x0, x1, o0, o1⟩ := idx_facts5 t
  refine ⟨t, flush5_7 t, ?_⟩
  show i ∈ ((View.whole main_v122).slice (win5_7.rect t)).set
  rw [View.set_slice_whole, Rect.mem_set_unit]
  intro a
  match a with
  | ⟨0, _⟩ =>
    show win5_7.index t (0 : Fin 2) * 4000 ≤ (i 0).val ∧ (i 0).val < win5_7.index t (0 : Fin 2) * 4000 + 4000
    rw [o0, ht]; omega
  | ⟨1, _⟩ =>
    show win5_7.index t (1 : Fin 2) * 128 ≤ (i 1).val ∧ (i 1).val < win5_7.index t (1 : Fin 2) * 128 + 128
    rw [o1]; omega

/-- THE RESULT ARRAY of region 5: the stage of the arrays the region finds. -/
theorem final5 (c : Dev nD) (b g be mu va : (⟨1, ![128]⟩ : Shape).Idx → EReal)
    (hb : ∀ q : Fin 128, V c main_v117 (ix2 (0 : Fin 1) q) = b (ix1 q)) (hg : ∀ q : Fin 128, V c main_v118 (ix2 (0 : Fin 1) q) = g (ix1 q))
    (hbe : ∀ q : Fin 128, V c main_v119 (ix2 (0 : Fin 1) q) = be (ix1 q)) (hmu : ∀ q : Fin 128, V c main_v120 (ix2 (0 : Fin 1) q) = mu (ix1 q))
    (hva : ∀ q : Fin 128, V c main_v121 (ix2 (0 : Fin 1) q) = va (ix1 q)) :
    (dat5 V c).arrAt 7 cfg5.N = Cert.NormRelu.normReluRes (M := 100000) (N := 128) 0x3727C5AC#32 (V c main_v106) b g be mu va (V c main_v90) :=
  (dat5 V c).arrAt_eq_of_cover 7 _ (fun t _ => flushed5 V c b g be mu va hb hg hbe hmu hva t) (cover5)

end Cert.KernelIdeal.RegionsNorm

end
-- ==== Proof.RefStages.lean ====
/-
  The reference program's stages, layer by layer, as the two whole-array functions of this network: the linear map of
  a layer is the plain matrix product of the layer's input with its [128, 128] weight slice, and what follows the
  aggregation is the normalisation stage (bias, mean, reciprocal root of variance plus ε, gain, shift, clamp at zero;
  from the second layer on the layer's input added back). The aggregation between the two — gather the product's rows
  along the edges, scale, scatter-add — is left as the program spells it.
-/
import proofs.«171728_j62122406969972_1_alg».proof.Proof.Gen.ReferenceIdeal.Read
import proofs.«171728_j62122406969972_1_alg».proof.Proof.LibMatProd
import proofs.«171728_j62122406969972_1_alg».proof.Proof.LibNormRelu

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

variable (x0 : (⟨S2x1600000, .i32⟩ : BufTy).Contents (Elt Ideal)) (x1 : (⟨S100000x128, .f32⟩ : BufTy).Contents (Elt Ideal))
  (x2 : (⟨S3x128x128, .f32⟩ : BufTy).Contents (Elt Ideal)) (x3 x4 x5 x6 x7 : (⟨S3x128, .f32⟩ : BufTy).Contents (Elt Ideal))

/-! ## The linear maps -/

/-- Layer 1's linear map: the product of the embedding with the first weight slice. -/
theorem linear1 : val_main_v29 (F := Ideal) x1 x2
    = Cert.MatProd.prod (M := 100000) (K := 128) (N := 128) x1 (val_main_v28 (F := Ideal) x2) := by
  unfold val_main_v29
  simp only [Host.dotGeneral]
  exact Cert.MatProd.dotGeneral_plain_eq (M := 100000) (K := 128) (N := 128) none _ x1 (val_main_v28 (F := Ideal) x2)

/-- Layer 2's linear map: the product of layer 1's output with the second weight slice. -/
theorem linear2 : val_main_v74 (F := Ideal) x0 x1 x2 x3 x4 x5 x6 x7
    = Cert.MatProd.prod (M := 100000) (K := 128) (N := 128) (val_main_v71 (F := Ideal) x0 x1 x2 x3 x4 x5 x6 x7) (val_main_v73 (F := Ideal) x2) := by
  unfold val_main_v74
  simp only [Host.dotGeneral]
  exact Cert.MatProd.dotGeneral_plain_eq (M := 100000) (K := 128) (N := 128) none _ (val_main_v71 (F := Ideal) x0 x1 x2 x3 x4 x5 x6 x7) (val_main_v73 (F := Ideal) x2)

/-- Layer 3's linear map: the product of layer 2's output with the third weight slice. -/
theorem linear3 : val_main_v120 (F := Ideal) x0 x1 x2 x3 x4 x5 x6 x7
    = Cert.MatProd.prod (M := 100000) (K := 128) (N := 128) (val_main_v117 (F := Ideal) x0 x1 x2 x3 x4 x5 x6 x7) (val_main_v119 (F := Ideal) x2) := by
  unfold val_main_v120
  simp only [Host.dotGeneral]
  exact Cert.MatProd.dotGeneral_plain_eq (M := 100000) (K := 128) (N := 128) none _ (val_main_v117 (F := Ideal) x0 x1 x2 x3 x4 x5 x6 x7) (val_main_v119 (F := Ideal) x2)

/-! ## The normalisation stages -/

/-- Layer 1's output: the stage of the aggregated array and the first slices of the five parameter arrays. -/
theorem norm1 : val_main_v71 (F := Ideal) x0 x1 x2 x3 x4 x5 x6 x7
    = Cert.NormRelu.normRelu (M := 100000) (N := 128) 0x3727C5AC#32 (val_main_v42 (F := Ideal) x0 x1 x2)
        (val_main_v44 (F := Ideal) x3) (val_main_v62 (F := Ideal) x4) (val_main_v67 (F := Ideal) x5)
        (val_main_v49 (F := Ideal) x6) (val_main_v54 (F := Ideal) x7) := by
  have h : val_main_v71 (F := Ideal) x0 x1 x2 x3 x4 x5 x6 x7
      = Cert.NormRelu.hostTerm (M := 100000) (N := 128) 0x3727C5AC#32 bcast_S128_S1x128_1 bcast_S1x128_S100000x128_0_1 bcast_S_S128 bcast_S_S100000x128
        (val_main_v42 (F := Ideal) x0 x1 x2) (val_main_v44 (F := Ideal) x3) (val_main_v62 (F := Ideal) x4)
        (val_main_v67 (F := Ideal) x5) (val_main_v49 (F := Ideal) x6) (val_main_v54 (F := Ideal) x7) := by
    unfold val_main_v71 val_main_v70 val_main_v65 val_main_v60 val_main_v52 val_main_v47 val_main_v46 val_main_v45 val_main_v51 val_main_v50 val_main_v59 val_main_v58 val_main_v57 val_main_v56 val_main_v55 val_main_cst_7 val_main_v64 val_main_v63 val_main_v69 val_main_v68 val_main_call0_v0 val_main_call0_cst Cert.NormRelu.hostTerm
    rfl
  rw [h, Cert.NormRelu.hostTerm_eq]

/-- Layer 2's output: the stage of the aggregated array and the second slices, plus layer 1's output. -/
theorem norm2 : val_main_v117 (F := Ideal) x0 x1 x2 x3 x4 x5 x6 x7
    = Cert.NormRelu.normReluRes (M := 100000) (N := 128) 0x3727C5AC#32 (val_main_v87 (F := Ideal) x0 x1 x2 x3 x4 x5 x6 x7)
        (val_main_v89 (F := Ideal) x3) (val_main_v107 (F := Ideal) x4) (val_main_v112 (F := Ideal) x5)
        (val_main_v94 (F := Ideal) x6) (val_main_v99 (F := Ideal) x7) (val_main_v71 (F := Ideal) x0 x1 x2 x3 x4 x5 x6 x7) := by
  have h : val_main_v116 (F := Ideal) x0 x1 x2 x3 x4 x5 x6 x7
      = Cert.NormRelu.hostTerm (M := 100000) (N := 128) 0x3727C5AC#32 bcast_S128_S1x128_1 bcast_S1x128_S100000x128_0_1 bcast_S_S128 bcast_S_S100000x128
        (val_main_v87 (F := Ideal) x0 x1 x2 x3 x4 x5 x6 x7) (val_main_v89 (F := Ideal) x3) (val_main_v107 (F := Ideal) x4)
        (val_main_v112 (F := Ideal) x5) (val_main_v94 (F := Ideal) x6) (val_main_v99 (F := Ideal) x7) := by
    unfold val_main_v116 val_main_v115 val_main_v110 val_main_v105 val_main_v97 val_main_v92 val_main_v91 val_main_v90 val_main_v96 val_main_v95 val_main_v104 val_main_v103 val_main_v102 val_main_v101 val_main_v100 val_main_cst_11 val_main_v109 val_main_v108 val_main_v114 val_main_v113 val_main_call1_v0 val_main_call1_cst Cert.NormRelu.hostTerm
    rfl
  unfold val_main_v117
  rw [h, Cert.NormRelu.hostTerm_eq]
  exact Cert.NormRelu.addf_normRelu _ _ _ _ _ _ _ _

/-- Layer 3's output: the stage of the aggregated array and the third slices, plus layer 2's output. -/
theorem norm3 : val_main_v163 (F := Ideal) x0 x1 x2 x3 x4 x5 x6 x7
    = Cert.NormRelu.normReluRes (M := 100000) (N := 128) 0x3727C5AC#32 (val_main_v133 (F := Ideal) x0 x1 x2 x3 x4 x5 x6 x7)
        (val_main_v135 (F := Ideal) x3) (val_main_v153 (F := Ideal) x4) (val_main_v158 (F := Ideal) x5)
        (val_main_v140 (F := Ideal) x6) (val_main_v145 (F := Ideal) x7) (val_main_v117 (F := Ideal) x0 x1 x2 x3 x4 x5 x6 x7) := by
  have h : val_main_v162 (F := Ideal) x0 x1 x2 x3 x4 x5 x6 x7
      = Cert.NormRelu.hostTerm (M := 100000) (N := 128) 0x3727C5AC#32 bcast_S128_S1x128_1 bcast_S1x128_S100000x128_0_1 bcast_S_S128 bcast_S_S100000x128
        (val_main_v133 (F := Ideal) x0 x1 x2 x3 x4 x5 x6 x7) (val_main_v135 (F := Ideal) x3) (val_main_v153 (F := Ideal) x4)
        (val_main_v158 (F := Ideal) x5) (val_main_v140 (F := Ideal) x6) (val_main_v145 (F := Ideal) x7) := by
    unfold val_main_v162 val_main_v161 val_main_v156 val_main_v151 val_main_v143 val_main_v138 val_main_v137 val_main_v136 val_main_v142 val_main_v141 val_main_v150 val_main_v149 val_main_v148 val_main_v147 val_main_v146 val_main_cst_15 val_main_v155 val_main_v154 val_main_v160 val_main_v159 val_main_call2_v0 val_main_call2_cst Cert.NormRelu.hostTerm
    rfl
  unfold val_main_v163
  rw [h, Cert.NormRelu.hostTerm_eq]
  exact Cert.NormRelu.addf_normRelu _ _ _ _ _ _ _ _

end Cert.ReferenceIdeal.Stages

end
-- ==== Proof.KernelFold.lean ====
/-
  The idealized kernel's buffers at the boundaries of its twelve segments, read back to the launch memory, in terms of
  the reference program's stages. A stretch of host operations applies them to what it finds; a region leaves in its
  result array the product (regions 0, 2, 4) or the normalisation stage (regions 1, 3, 5) of the arrays it finds, and
  every other buffer — its own input arrays too — as it was. The host operations of the two programs are the same text — the edge lists with the
  self loops appended, the degree normalisation, the gather / scale / scatter-add aggregation, the parameter slices — so
  each stretch is the reference's own stage of the same operands.
-/
import proofs.«171728_j62122406969972_1_alg».proof.Proof.Gen.KernelIdeal.Frame
import proofs.«171728_j62122406969972_1_alg».proof.Proof.Gen.ReferenceIdeal.Read
import Idealize.ShloMosaic.Lib.StableHlo.Run
import Idealize.ShloMosaic.Lib.ValueLayout
import proofs.«171728_j62122406969972_1_alg».proof.Proof.RegionsProd
import proofs.«171728_j62122406969972_1_alg».proof.Proof.RegionsNorm
import proofs.«171728_j62122406969972_1_alg».proof.Proof.RefStages

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Idealize.ShloMosaic.ValueIdx

variable (m : (ℓ : Loc nD τ sig) → Buf (Elt Ideal) ℓ) (ρ : Dev nD → PrngReg) (c : Dev nD)

/-! ## Buffers no later segment writes: the arguments, the two edge lists, the edge weights -/

/-- Argument 2 is written by no segment. -/
theorem k0_main_arg2 : W0 m ρ c (Proc.devRef .tc main_arg2) = (m ((c.tc : Thread nD τ).loc main_arg2)) := rfl
theorem k1_main_arg2 : W1 m ρ c (Proc.devRef .tc main_arg2) = (m ((c.tc : Thread nD τ).loc main_arg2)) := by
  refine Eq.trans ?_ (k0_main_arg2 m ρ c)
  show StableHlo.after hostOps0 (W0 m ρ c) (Proc.devRef .tc main_arg2) = _
  dsimp only [hostOps0]
  after_results_simp
theorem k2_main_arg2 : W2 m ρ c (Proc.devRef .tc main_arg2) = (m ((c.tc : Thread nD τ).loc main_arg2)) :=
  (W2_of_ne m ρ c main_arg2 (by decide)).trans (k1_main_arg2 m ρ c)
theorem k3_main_arg2 : W3 m ρ c (Proc.devRef .tc main_arg2) = (m ((c.tc : Thread nD τ).loc main_arg2)) := by
  refine Eq.trans ?_ (k2_main_arg2 m ρ c)
  show StableHlo.after hostOps1 (W2 m ρ c) (Proc.devRef .tc main_arg2) = _
  dsimp only [hostOps1]
  after_results_simp
theorem k4_main_arg2 : W4 m ρ c (Proc.devRef .tc main_arg2) = (m ((c.tc : Thread nD τ).loc main_arg2)) :=
  (W4_of_ne m ρ c main_arg2 (by decide)).trans (k3_main_arg2 m ρ c)
theorem k5_main_arg2 : W5 m ρ c (Proc.devRef .tc main_arg2) = (m ((c.tc : Thread nD τ).loc main_arg2)) := by
  refine Eq.trans ?_ (k4_main_arg2 m ρ c)
  show StableHlo.after hostOps2 (W4 m ρ c) (Proc.devRef .tc main_arg2) = _
  dsimp only [hostOps2]
  after_results_simp
theorem k6_main_arg2 : W6 m ρ c (Proc.devRef .tc main_arg2) = (m ((c.tc : Thread nD τ).loc main_arg2)) :=
  (W6_of_ne m ρ c main_arg2 (by decide)).trans (k5_main_arg2 m ρ c)
theorem k7_main_arg2 : W7 m ρ c (Proc.devRef .tc main_arg2) = (m ((c.tc : Thread nD τ).loc main_arg2)) := by
  refine Eq.trans ?_ (k6_main_arg2 m ρ c)
  show StableHlo.after hostOps3 (W6 m ρ c) (Proc.devRef .tc main_arg2) = _
  dsimp only [hostOps3]
  after_results_simp
theorem k8_main_arg2 : W8 m ρ c (Proc.devRef .tc main_arg2) = (m ((c.tc : Thread nD τ).loc main_arg2)) :=
  (W8_of_ne m ρ c main_arg2 (by decide)).trans (k7_main_arg2 m ρ c)

/-- Argument 3 is written by no segment. -/
theorem k0_main_arg3 : W0 m ρ c (Proc.devRef .tc main_arg3) = (m ((c.tc : Thread nD τ).loc main_arg3)) := rfl
theorem k1_main_arg3 : W1 m ρ c (Proc.devRef .tc main_arg3) = (m ((c.tc : Thread nD τ).loc main_arg3)) := by
  refine Eq.trans ?_ (k0_main_arg3 m ρ c)
  show StableHlo.after hostOps0 (W0 m ρ c) (Proc.devRef .tc main_arg3) = _
  dsimp only [hostOps0]
  after_results_simp
theorem k2_main_arg3 : W2 m ρ c (Proc.devRef .tc main_arg3) = (m ((c.tc : Thread nD τ).loc main_arg3)) :=
  (W2_of_ne m ρ c main_arg3 (by decide)).trans (k1_main_arg3 m ρ c)
theorem k3_main_arg3 : W3 m ρ c (Proc.devRef .tc main_arg3) = (m ((c.tc : Thread nD τ).loc main_arg3)) := by
  refine Eq.trans ?_ (k2_main_arg3 m ρ c)
  show StableHlo.after hostOps1 (W2 m ρ c) (Proc.devRef .tc main_arg3) = _
  dsimp only [hostOps1]
  after_results_simp
theorem k4_main_arg3 : W4 m ρ c (Proc.devRef .tc main_arg3) = (m ((c.tc : Thread nD τ).loc main_arg3)) :=
  (W4_of_ne m ρ c main_arg3 (by decide)).trans (k3_main_arg3 m ρ c)
theorem k5_main_arg3 : W5 m ρ c (Proc.devRef .tc main_arg3) = (m ((c.tc : Thread nD τ).loc main_arg3)) := by
  refine Eq.trans ?_ (k4_main_arg3 m ρ c)
  show StableHlo.after hostOps2 (W4 m ρ c) (Proc.devRef .tc main_arg3) = _
  dsimp only [hostOps2]
  after_results_simp
theorem k6_main_arg3 : W6 m ρ c (Proc.devRef .tc main_arg3) = (m ((c.tc : Thread nD τ).loc main_arg3)) :=
  (W6_of_ne m ρ c main_arg3 (by decide)).trans (k5_main_arg3 m ρ c)
theorem k7_main_arg3 : W7 m ρ c (Proc.devRef .tc main_arg3) = (m ((c.tc : Thread nD τ).loc main_arg3)) := by
  refine Eq.trans ?_ (k6_main_arg3 m ρ c)
  show StableHlo.after hostOps3 (W6 m ρ c) (Proc.devRef .tc main_arg3) = _
  dsimp only [hostOps3]
  after_results_simp
theorem k8_main_arg3 : W8 m ρ c (Proc.devRef .tc main_arg3) = (m ((c.tc : Thread nD τ).loc main_arg3)) :=
  (W8_of_ne m ρ c main_arg3 (by decide)).trans (k7_main_arg3 m ρ c)
theorem k9_main_arg3 : W9 m ρ c (Proc.devRef .tc main_arg3) = (m ((c.tc : Thread nD τ).loc main_arg3)) := by
  refine Eq.trans ?_ (k8_main_arg3 m ρ c)
  show StableHlo.after hostOps4 (W8 m ρ c) (Proc.devRef .tc main_arg3) = _
  dsimp only [hostOps4]
  after_results_simp
theorem k10_main_arg3 : W10 m ρ c (Proc.devRef .tc main_arg3) = (m ((c.tc : Thread nD τ).loc main_arg3)) :=
  (W10_of_ne m ρ c main_arg3 (by decide)).trans (k9_main_arg3 m ρ c)

/-- Argument 4 is written by no segment. -/
theorem k0_main_arg4 : W0 m ρ c (Proc.devRef .tc main_arg4) = (m ((c.tc : Thread nD τ).loc main_arg4)) := rfl
theorem k1_main_arg4 : W1 m ρ c (Proc.devRef .tc main_arg4) = (m ((c.tc : Thread nD τ).loc main_arg4)) := by
  refine Eq.trans ?_ (k0_main_arg4 m ρ c)
  show StableHlo.after hostOps0 (W0 m ρ c) (Proc.devRef .tc main_arg4) = _
  dsimp only [hostOps0]
  after_results_simp
theorem k2_main_arg4 : W2 m ρ c (Proc.devRef .tc main_arg4) = (m ((c.tc : Thread nD τ).loc main_arg4)) :=
  (W2_of_ne m ρ c main_arg4 (by decide)).trans (k1_main_arg4 m ρ c)
theorem k3_main_arg4 : W3 m ρ c (Proc.devRef .tc main_arg4) = (m ((c.tc : Thread nD τ).loc main_arg4)) := by
  refine Eq.trans ?_ (k2_main_arg4 m ρ c)
  show StableHlo.after hostOps1 (W2 m ρ c) (Proc.devRef .tc main_arg4) = _
  dsimp only [hostOps1]
  after_results_simp
theorem k4_main_arg4 : W4 m ρ c (Proc.devRef .tc main_arg4) = (m ((c.tc : Thread nD τ).loc main_arg4)) :=
  (W4_of_ne m ρ c main_arg4 (by decide)).trans (k3_main_arg4 m ρ c)
theorem k5_main_arg4 : W5 m ρ c (Proc.devRef .tc main_arg4) = (m ((c.tc : Thread nD τ).loc main_arg4)) := by
  refine Eq.trans ?_ (k4_main_arg4 m ρ c)
  show StableHlo.after hostOps2 (W4 m ρ c) (Proc.devRef .tc main_arg4) = _
  dsimp only [hostOps2]
  after_results_simp
theorem k6_main_arg4 : W6 m ρ c (Proc.devRef .tc main_arg4) = (m ((c.tc : Thread nD τ).loc main_arg4)) :=
  (W6_of_ne m ρ c main_arg4 (by decide)).trans (k5_main_arg4 m ρ c)
theorem k7_main_arg4 : W7 m ρ c (Proc.devRef .tc main_arg4) = (m ((c.tc : Thread nD τ).loc main_arg4)) := by
  refine Eq.trans ?_ (k6_main_arg4 m ρ c)
  show StableHlo.after hostOps3 (W6 m ρ c) (Proc.devRef .tc main_arg4) = _
  dsimp only [hostOps3]
  after_results_simp
theorem k8_main_arg4 : W8 m ρ c (Proc.devRef .tc main_arg4) = (m ((c.tc : Thread nD τ).loc main_arg4)) :=
  (W8_of_ne m ρ c main_arg4 (by decide)).trans (k7_main_arg4 m ρ c)
theorem k9_main_arg4 : W9 m ρ c (Proc.devRef .tc main_arg4) = (m ((c.tc : Thread nD τ).loc main_arg4)) := by
  refine Eq.trans ?_ (k8_main_arg4 m ρ c)
  show StableHlo.after hostOps4 (W8 m ρ c) (Proc.devRef .tc main_arg4) = _
  dsimp only [hostOps4]
  after_results_simp
theorem k10_main_arg4 : W10 m ρ c (Proc.devRef .tc main_arg4) = (m ((c.tc : Thread nD τ).loc main_arg4)) :=
  (W10_of_ne m ρ c main_arg4 (by decide)).trans (k9_main_arg4 m ρ c)

/-- Argument 5 is written by no segment. -/
theorem k0_main_arg5 : W0 m ρ c (Proc.devRef .tc main_arg5) = (m ((c.tc : Thread nD τ).loc main_arg5)) := rfl
theorem k1_main_arg5 : W1 m ρ c (Proc.devRef .tc main_arg5) = (m ((c.tc : Thread nD τ).loc main_arg5)) := by
  refine Eq.trans ?_ (k0_main_arg5 m ρ c)
  show StableHlo.after hostOps0 (W0 m ρ c) (Proc.devRef .tc main_arg5) = _
  dsimp only [hostOps0]
  after_results_simp
theorem k2_main_arg5 : W2 m ρ c (Proc.devRef .tc main_arg5) = (m ((c.tc : Thread nD τ).loc main_arg5)) :=
  (W2_of_ne m ρ c main_arg5 (by decide)).trans (k1_main_arg5 m ρ c)
theorem k3_main_arg5 : W3 m ρ c (Proc.devRef .tc main_arg5) = (m ((c.tc : Thread nD τ).loc main_arg5)) := by
  refine Eq.trans ?_ (k2_main_arg5 m ρ c)
  show StableHlo.after hostOps1 (W2 m ρ c) (Proc.devRef .tc main_arg5) = _
  dsimp only [hostOps1]
  after_results_simp
theorem k4_main_arg5 : W4 m ρ c (Proc.devRef .tc main_arg5) = (m ((c.tc : Thread nD τ).loc main_arg5)) :=
  (W4_of_ne m ρ c main_arg5 (by decide)).trans (k3_main_arg5 m ρ c)
theorem k5_main_arg5 : W5 m ρ c (Proc.devRef .tc main_arg5) = (m ((c.tc : Thread nD τ).loc main_arg5)) := by
  refine Eq.trans ?_ (k4_main_arg5 m ρ c)
  show StableHlo.after hostOps2 (W4 m ρ c) (Proc.devRef .tc main_arg5) = _
  dsimp only [hostOps2]
  after_results_simp
theorem k6_main_arg5 : W6 m ρ c (Proc.devRef .tc main_arg5) = (m ((c.tc : Thread nD τ).loc main_arg5)) :=
  (W6_of_ne m ρ c main_arg5 (by decide)).trans (k5_main_arg5 m ρ c)
theorem k7_main_arg5 : W7 m ρ c (Proc.devRef .tc main_arg5) = (m ((c.tc : Thread nD τ).loc main_arg5)) := by
  refine Eq.trans ?_ (k6_main_arg5 m ρ c)
  show StableHlo.after hostOps3 (W6 m ρ c) (Proc.devRef .tc main_arg5) = _
  dsimp only [hostOps3]
  after_results_simp
theorem k8_main_arg5 : W8 m ρ c (Proc.devRef .tc main_arg5) = (m ((c.tc : Thread nD τ).loc main_arg5)) :=
  (W8_of_ne m ρ c main_arg5 (by decide)).trans (k7_main_arg5 m ρ c)
theorem k9_main_arg5 : W9 m ρ c (Proc.devRef .tc main_arg5) = (m ((c.tc : Thread nD τ).loc main_arg5)) := by
  refine Eq.trans ?_ (k8_main_arg5 m ρ c)
  show StableHlo.after hostOps4 (W8 m ρ c) (Proc.devRef .tc main_arg5) = _
  dsimp only [hostOps4]
  after_results_simp
theorem k10_main_arg5 : W10 m ρ c (Proc.devRef .tc main_arg5) = (m ((c.tc : Thread nD τ).loc main_arg5)) :=
  (W10_of_ne m ρ c main_arg5 (by decide)).trans (k9_main_arg5 m ρ c)

/-- Argument 6 is written by no segment. -/
theorem k0_main_arg6 : W0 m ρ c (Proc.devRef .tc main_arg6) = (m ((c.tc : Thread nD τ).loc main_arg6)) := rfl
theorem k1_main_arg6 : W1 m ρ c (Proc.devRef .tc main_arg6) = (m ((c.tc : Thread nD τ).loc main_arg6)) := by
  refine Eq.trans ?_ (k0_main_arg6 m ρ c)
  show StableHlo.after hostOps0 (W0 m ρ c) (Proc.devRef .tc main_arg6) = _
  dsimp only [hostOps0]
  after_results_simp
theorem k2_main_arg6 : W2 m ρ c (Proc.devRef .tc main_arg6) = (m ((c.tc : Thread nD τ).loc main_arg6)) :=
  (W2_of_ne m ρ c main_arg6 (by decide)).trans (k1_main_arg6 m ρ c)
theorem k3_main_arg6 : W3 m ρ c (Proc.devRef .tc main_arg6) = (m ((c.tc : Thread nD τ).loc main_arg6)) := by
  refine Eq.trans ?_ (k2_main_arg6 m ρ c)
  show StableHlo.after hostOps1 (W2 m ρ c) (Proc.devRef .tc main_arg6) = _
  dsimp only [hostOps1]
  after_results_simp
theorem k4_main_arg6 : W4 m ρ c (Proc.devRef .tc main_arg6) = (m ((c.tc : Thread nD τ).loc main_arg6)) :=
  (W4_of_ne m ρ c main_arg6 (by decide)).trans (k3_main_arg6 m ρ c)
theorem k5_main_arg6 : W5 m ρ c (Proc.devRef .tc main_arg6) = (m ((c.tc : Thread nD τ).loc main_arg6)) := by
  refine Eq.trans ?_ (k4_main_arg6 m ρ c)
  show StableHlo.after hostOps2 (W4 m ρ c) (Proc.devRef .tc main_arg6) = _
  dsimp only [hostOps2]
  after_results_simp
theorem k6_main_arg6 : W6 m ρ c (Proc.devRef .tc main_arg6) = (m ((c.tc : Thread nD τ).loc main_arg6)) :=
  (W6_of_ne m ρ c main_arg6 (by decide)).trans (k5_main_arg6 m ρ c)
theorem k7_main_arg6 : W7 m ρ c (Proc.devRef .tc main_arg6) = (m ((c.tc : Thread nD τ).loc main_arg6)) := by
  refine Eq.trans ?_ (k6_main_arg6 m ρ c)
  show StableHlo.after hostOps3 (W6 m ρ c) (Proc.devRef .tc main_arg6) = _
  dsimp only [hostOps3]
  after_results_simp
theorem k8_main_arg6 : W8 m ρ c (Proc.devRef .tc main_arg6) = (m ((c.tc : Thread nD τ).loc main_arg6)) :=
  (W8_of_ne m ρ c main_arg6 (by decide)).trans (k7_main_arg6 m ρ c)
theorem k9_main_arg6 : W9 m ρ c (Proc.devRef .tc main_arg6) = (m ((c.tc : Thread nD τ).loc main_arg6)) := by
  refine Eq.trans ?_ (k8_main_arg6 m ρ c)
  show StableHlo.after hostOps4 (W8 m ρ c) (Proc.devRef .tc main_arg6) = _
  dsimp only [hostOps4]
  after_results_simp
theorem k10_main_arg6 : W10 m ρ c (Proc.devRef .tc main_arg6) = (m ((c.tc : Thread nD τ).loc main_arg6)) :=
  (W10_of_ne m ρ c main_arg6 (by decide)).trans (k9_main_arg6 m ρ c)

/-- Argument 7 is written by no segment. -/
theorem k0_main_arg7 : W0 m ρ c (Proc.devRef .tc main_arg7) = (m ((c.tc : Thread nD τ).loc main_arg7)) := rfl
theorem k1_main_arg7 : W1 m ρ c (Proc.devRef .tc main_arg7) = (m ((c.tc : Thread nD τ).loc main_arg7)) := by
  refine Eq.trans ?_ (k0_main_arg7 m ρ c)
  show StableHlo.after hostOps0 (W0 m ρ c) (Proc.devRef .tc main_arg7) = _
  dsimp only [hostOps0]
  after_results_simp
theorem k2_main_arg7 : W2 m ρ c (Proc.devRef .tc main_arg7) = (m ((c.tc : Thread nD τ).loc main_arg7)) :=
  (W2_of_ne m ρ c main_arg7 (by decide)).trans (k1_main_arg7 m ρ c)
theorem k3_main_arg7 : W3 m ρ c (Proc.devRef .tc main_arg7) = (m ((c.tc : Thread nD τ).loc main_arg7)) := by
  refine Eq.trans ?_ (k2_main_arg7 m ρ c)
  show StableHlo.after hostOps1 (W2 m ρ c) (Proc.devRef .tc main_arg7) = _
  dsimp only [hostOps1]
  after_results_simp
theorem k4_main_arg7 : W4 m ρ c (Proc.devRef .tc main_arg7) = (m ((c.tc : Thread nD τ).loc main_arg7)) :=
  (W4_of_ne m ρ c main_arg7 (by decide)).trans (k3_main_arg7 m ρ c)
theorem k5_main_arg7 : W5 m ρ c (Proc.devRef .tc main_arg7) = (m ((c.tc : Thread nD τ).loc main_arg7)) := by
  refine Eq.trans ?_ (k4_main_arg7 m ρ c)
  show StableHlo.after hostOps2 (W4 m ρ c) (Proc.devRef .tc main_arg7) = _
  dsimp only [hostOps2]
  after_results_simp
theorem k6_main_arg7 : W6 m ρ c (Proc.devRef .tc main_arg7) = (m ((c.tc : Thread nD τ).loc main_arg7)) :=
  (W6_of_ne m ρ c main_arg7 (by decide)).trans (k5_main_arg7 m ρ c)
theorem k7_main_arg7 : W7 m ρ c (Proc.devRef .tc main_arg7) = (m ((c.tc : Thread nD τ).loc main_arg7)) := by
  refine Eq.trans ?_ (k6_main_arg7 m ρ c)
  show StableHlo.after hostOps3 (W6 m ρ c) (Proc.devRef .tc main_arg7) = _
  dsimp only [hostOps3]
  after_results_simp
theorem k8_main_arg7 : W8 m ρ c (Proc.devRef .tc main_arg7) = (m ((c.tc : Thread nD τ).loc main_arg7)) :=
  (W8_of_ne m ρ c main_arg7 (by decide)).trans (k7_main_arg7 m ρ c)
theorem k9_main_arg7 : W9 m ρ c (Proc.devRef .tc main_arg7) = (m ((c.tc : Thread nD τ).loc main_arg7)) := by
  refine Eq.trans ?_ (k8_main_arg7 m ρ c)
  show StableHlo.after hostOps4 (W8 m ρ c) (Proc.devRef .tc main_arg7) = _
  dsimp only [hostOps4]
  after_results_simp
theorem k10_main_arg7 : W10 m ρ c (Proc.devRef .tc main_arg7) = (m ((c.tc : Thread nD τ).loc main_arg7)) :=
  (W10_of_ne m ρ c main_arg7 (by decide)).trans (k9_main_arg7 m ρ c)

/-- Argument 1 up to the first region. -/
theorem k0_main_arg1 : W0 m ρ c (Proc.devRef .tc main_arg1) = (m ((c.tc : Thread nD τ).loc main_arg1)) := rfl
theorem k1_main_arg1 : W1 m ρ c (Proc.devRef .tc main_arg1) = (m ((c.tc : Thread nD τ).loc main_arg1)) := by
  refine Eq.trans ?_ (k0_main_arg1 m ρ c)
  show StableHlo.after hostOps0 (W0 m ρ c) (Proc.devRef .tc main_arg1) = _
  dsimp only [hostOps0]
  after_results_simp

/-- The source list with the self loops appended. -/
theorem k1_main_v3 : W1 m ρ c (Proc.devRef .tc main_v3) = Cert.ReferenceIdeal.Read.val_main_v3 (F := Ideal) (m ((c.tc : Thread nD τ).loc main_arg0)) := by
  show StableHlo.after hostOps0 (W0 m ρ c) (Proc.devRef .tc main_v3) = _
  dsimp only [hostOps0]
  after_results_simp
  rfl
theorem k2_main_v3 : W2 m ρ c (Proc.devRef .tc main_v3) = Cert.ReferenceIdeal.Read.val_main_v3 (F := Ideal) (m ((c.tc : Thread nD τ).loc main_arg0)) :=
  (W2_of_ne m ρ c main_v3 (by decide)).trans (k1_main_v3 m ρ c)
theorem k3_main_v3 : W3 m ρ c (Proc.devRef .tc main_v3) = Cert.ReferenceIdeal.Read.val_main_v3 (F := Ideal) (m ((c.tc : Thread nD τ).loc main_arg0)) := by
  refine Eq.trans ?_ (k2_main_v3 m ρ c)
  show StableHlo.after hostOps1 (W2 m ρ c) (Proc.devRef .tc main_v3) = _
  dsimp only [hostOps1]
  after_results_simp
theorem k4_main_v3 : W4 m ρ c (Proc.devRef .tc main_v3) = Cert.ReferenceIdeal.Read.val_main_v3 (F := Ideal) (m ((c.tc : Thread nD τ).loc main_arg0)) :=
  (W4_of_ne m ρ c main_v3 (by decide)).trans (k3_main_v3 m ρ c)
theorem k5_main_v3 : W5 m ρ c (Proc.devRef .tc main_v3) = Cert.ReferenceIdeal.Read.val_main_v3 (F := Ideal) (m ((c.tc : Thread nD τ).loc main_arg0)) := by
  refine Eq.trans ?_ (k4_main_v3 m ρ c)
  show StableHlo.after hostOps2 (W4 m ρ c) (Proc.devRef .tc main_v3) = _
  dsimp only [hostOps2]
  after_results_simp
theorem k6_main_v3 : W6 m ρ c (Proc.devRef .tc main_v3) = Cert.ReferenceIdeal.Read.val_main_v3 (F := Ideal) (m ((c.tc : Thread nD τ).loc main_arg0)) :=
  (W6_of_ne m ρ c main_v3 (by decide)).trans (k5_main_v3 m ρ c)
theorem k7_main_v3 : W7 m ρ c (Proc.devRef .tc main_v3) = Cert.ReferenceIdeal.Read.val_main_v3 (F := Ideal) (m ((c.tc : Thread nD τ).loc main_arg0)) := by
  refine Eq.trans ?_ (k6_main_v3 m ρ c)
  show StableHlo.after hostOps3 (W6 m ρ c) (Proc.devRef .tc main_v3) = _
  dsimp only [hostOps3]
  after_results_simp
theorem k8_main_v3 : W8 m ρ c (Proc.devRef .tc main_v3) = Cert.ReferenceIdeal.Read.val_main_v3 (F := Ideal) (m ((c.tc : Thread nD τ).loc main_arg0)) :=
  (W8_of_ne m ρ c main_v3 (by decide)).trans (k7_main_v3 m ρ c)
theorem k9_main_v3 : W9 m ρ c (Proc.devRef .tc main_v3) = Cert.ReferenceIdeal.Read.val_main_v3 (F := Ideal) (m ((c.tc : Thread nD τ).loc main_arg0)) := by
  refine Eq.trans ?_ (k8_main_v3 m ρ c)
  show StableHlo.after hostOps4 (W8 m ρ c) (Proc.devRef .tc main_v3) = _
  dsimp only [hostOps4]
  after_results_simp
theorem k10_main_v3 : W10 m ρ c (Proc.devRef .tc main_v3) = Cert.ReferenceIdeal.Read.val_main_v3 (F := Ideal) (m ((c.tc : Thread nD τ).loc main_arg0)) :=
  (W10_of_ne m ρ c main_v3 (by decide)).trans (k9_main_v3 m ρ c)

/-- The destination list with the self loops appended. -/
theorem k1_main_v6 : W1 m ρ c (Proc.devRef .tc main_v6) = Cert.ReferenceIdeal.Read.val_main_v6 (F := Ideal) (m ((c.tc : Thread nD τ).loc main_arg0)) := by
  show StableHlo.after hostOps0 (W0 m ρ c) (Proc.devRef .tc main_v6) = _
  dsimp only [hostOps0]
  after_results_simp
  rfl
theorem k2_main_v6 : W2 m ρ c (Proc.devRef .tc main_v6) = Cert.ReferenceIdeal.Read.val_main_v6 (F := Ideal) (m ((c.tc : Thread nD τ).loc main_arg0)) :=
  (W2_of_ne m ρ c main_v6 (by decide)).trans (k1_main_v6 m ρ c)
theorem k3_main_v6 : W3 m ρ c (Proc.devRef .tc main_v6) = Cert.ReferenceIdeal.Read.val_main_v6 (F := Ideal) (m ((c.tc : Thread nD τ).loc main_arg0)) := by
  refine Eq.trans ?_ (k2_main_v6 m ρ c)
  show StableHlo.after hostOps1 (W2 m ρ c) (Proc.devRef .tc main_v6) = _
  dsimp only [hostOps1]
  after_results_simp
theorem k4_main_v6 : W4 m ρ c (Proc.devRef .tc main_v6) = Cert.ReferenceIdeal.Read.val_main_v6 (F := Ideal) (m ((c.tc : Thread nD τ).loc main_arg0)) :=
  (W4_of_ne m ρ c main_v6 (by decide)).trans (k3_main_v6 m ρ c)
theorem k5_main_v6 : W5 m ρ c (Proc.devRef .tc main_v6) = Cert.ReferenceIdeal.Read.val_main_v6 (F := Ideal) (m ((c.tc : Thread nD τ).loc main_arg0)) := by
  refine Eq.trans ?_ (k4_main_v6 m ρ c)
  show StableHlo.after hostOps2 (W4 m ρ c) (Proc.devRef .tc main_v6) = _
  dsimp only [hostOps2]
  after_results_simp
theorem k6_main_v6 : W6 m ρ c (Proc.devRef .tc main_v6) = Cert.ReferenceIdeal.Read.val_main_v6 (F := Ideal) (m ((c.tc : Thread nD τ).loc main_arg0)) :=
  (W6_of_ne m ρ c main_v6 (by decide)).trans (k5_main_v6 m ρ c)
theorem k7_main_v6 : W7 m ρ c (Proc.devRef .tc main_v6) = Cert.ReferenceIdeal.Read.val_main_v6 (F := Ideal) (m ((c.tc : Thread nD τ).loc main_arg0)) := by
  refine Eq.trans ?_ (k6_main_v6 m ρ c)
  show StableHlo.after hostOps3 (W6 m ρ c) (Proc.devRef .tc main_v6) = _
  dsimp only [hostOps3]
  after_results_simp
theorem k8_main_v6 : W8 m ρ c (Proc.devRef .tc main_v6) = Cert.ReferenceIdeal.Read.val_main_v6 (F := Ideal) (m ((c.tc : Thread nD τ).loc main_arg0)) :=
  (W8_of_ne m ρ c main_v6 (by decide)).trans (k7_main_v6 m ρ c)
theorem k9_main_v6 : W9 m ρ c (Proc.devRef .tc main_v6) = Cert.ReferenceIdeal.Read.val_main_v6 (F := Ideal) (m ((c.tc : Thread nD τ).loc main_arg0)) := by
  refine Eq.trans ?_ (k8_main_v6 m ρ c)
  show StableHlo.after hostOps4 (W8 m ρ c) (Proc.devRef .tc main_v6) = _
  dsimp only [hostOps4]
  after_results_simp
theorem k10_main_v6 : W10 m ρ c (Proc.devRef .tc main_v6) = Cert.ReferenceIdeal.Read.val_main_v6 (F := Ideal) (m ((c.tc : Thread nD τ).loc main_arg0)) :=
  (W10_of_ne m ρ c main_v6 (by decide)).trans (k9_main_v6 m ρ c)

/-- The edge weights: the reciprocal roots of the two end points' degrees, multiplied. -/
theorem k1_main_v26 : W1 m ρ c (Proc.devRef .tc main_v26) = Cert.ReferenceIdeal.Read.val_main_v26 (F := Ideal) (m ((c.tc : Thread nD τ).loc main_arg0)) := by
  show StableHlo.after hostOps0 (W0 m ρ c) (Proc.devRef .tc main_v26) = _
  dsimp only [hostOps0]
  after_results_simp
  rfl
theorem k2_main_v26 : W2 m ρ c (Proc.devRef .tc main_v26) = Cert.ReferenceIdeal.Read.val_main_v26 (F := Ideal) (m ((c.tc : Thread nD τ).loc main_arg0)) :=
  (W2_of_ne m ρ c main_v26 (by decide)).trans (k1_main_v26 m ρ c)
theorem k3_main_v26 : W3 m ρ c (Proc.devRef .tc main_v26) = Cert.ReferenceIdeal.Read.val_main_v26 (F := Ideal) (m ((c.tc : Thread nD τ).loc main_arg0)) := by
  refine Eq.trans ?_ (k2_main_v26 m ρ c)
  show StableHlo.after hostOps1 (W2 m ρ c) (Proc.devRef .tc main_v26) = _
  dsimp only [hostOps1]
  after_results_simp
theorem k4_main_v26 : W4 m ρ c (Proc.devRef .tc main_v26) = Cert.ReferenceIdeal.Read.val_main_v26 (F := Ideal) (m ((c.tc : Thread nD τ).loc main_arg0)) :=
  (W4_of_ne m ρ c main_v26 (by decide)).trans (k3_main_v26 m ρ c)
theorem k5_main_v26 : W5 m ρ c (Proc.devRef .tc main_v26) = Cert.ReferenceIdeal.Read.val_main_v26 (F := Ideal) (m ((c.tc : Thread nD τ).loc main_arg0)) := by
  refine Eq.trans ?_ (k4_main_v26 m ρ c)
  show StableHlo.after hostOps2 (W4 m ρ c) (Proc.devRef .tc main_v26) = _
  dsimp only [hostOps2]
  after_results_simp
theorem k6_main_v26 : W6 m ρ c (Proc.devRef .tc main_v26) = Cert.ReferenceIdeal.Read.val_main_v26 (F := Ideal) (m ((c.tc : Thread nD τ).loc main_arg0)) :=
  (W6_of_ne m ρ c main_v26 (by decide)).trans (k5_main_v26 m ρ c)
theorem k7_main_v26 : W7 m ρ c (Proc.devRef .tc main_v26) = Cert.ReferenceIdeal.Read.val_main_v26 (F := Ideal) (m ((c.tc : Thread nD τ).loc main_arg0)) := by
  refine Eq.trans ?_ (k6_main_v26 m ρ c)
  show StableHlo.after hostOps3 (W6 m ρ c) (Proc.devRef .tc main_v26) = _
  dsimp only [hostOps3]
  after_results_simp
theorem k8_main_v26 : W8 m ρ c (Proc.devRef .tc main_v26) = Cert.ReferenceIdeal.Read.val_main_v26 (F := Ideal) (m ((c.tc : Thread nD τ).loc main_arg0)) :=
  (W8_of_ne m ρ c main_v26 (by decide)).trans (k7_main_v26 m ρ c)
theorem k9_main_v26 : W9 m ρ c (Proc.devRef .tc main_v26) = Cert.ReferenceIdeal.Read.val_main_v26 (F := Ideal) (m ((c.tc : Thread nD τ).loc main_arg0)) := by
  refine Eq.trans ?_ (k8_main_v26 m ρ c)
  show StableHlo.after hostOps4 (W8 m ρ c) (Proc.devRef .tc main_v26) = _
  dsimp only [hostOps4]
  after_results_simp
theorem k10_main_v26 : W10 m ρ c (Proc.devRef .tc main_v26) = Cert.ReferenceIdeal.Read.val_main_v26 (F := Ideal) (m ((c.tc : Thread nD τ).loc main_arg0)) :=
  (W10_of_ne m ρ c main_v26 (by decide)).trans (k9_main_v26 m ρ c)

/-- The first weight slice. -/
theorem k1_main_v28 : W1 m ρ c (Proc.devRef .tc main_v28) = Cert.ReferenceIdeal.Read.val_main_v28 (F := Ideal) (m ((c.tc : Thread nD τ).loc main_arg2)) := by
  show StableHlo.after hostOps0 (W0 m ρ c) (Proc.devRef .tc main_v28) = _
  dsimp only [hostOps0]
  after_results_simp
  rfl

/-! ## Layer 1 -/

/-- The linear map's region leaves the product, which is the reference's linear map of this layer. -/
theorem k2_main_v29 : W2 m ρ c (Proc.devRef .tc main_v29) = Cert.ReferenceIdeal.Read.val_main_v29 (F := Ideal) (m ((c.tc : Thread nD τ).loc main_arg1)) (m ((c.tc : Thread nD τ).loc main_arg2)) := by
  refine (W2_arr m ρ c 2).trans ((Cert.KernelIdeal.RegionsProd.final0 (V1 m ρ) c).trans ?_)
  show Cert.MatProd.prod (M := 100000) (K := 128) (N := 128) (W1 m ρ c (Proc.devRef .tc main_arg1)) (W1 m ρ c (Proc.devRef .tc main_v28)) = _
  rw [k1_main_arg1 m ρ c, k1_main_v28 m ρ c]
  exact (Cert.ReferenceIdeal.Stages.linear1 (m ((c.tc : Thread nD τ).loc main_arg1)) (m ((c.tc : Thread nD τ).loc main_arg2))).symm

/-- The aggregation: gather the product's rows along the edges, scale by the edge weights, scatter-add. -/
theorem k3_main_v42 : W3 m ρ c (Proc.devRef .tc main_v42) = Cert.ReferenceIdeal.Read.val_main_v42 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v42) = _
  dsimp only [hostOps1]
  after_results_simp
  rw [k2_main_v3 m ρ c, k2_main_v6 m ρ c, k2_main_v26 m ρ c, k2_main_v29 m ρ c]
  rfl

/-- A parameter row at column `q` is the parameter's slice at `q`. -/
theorem k3_main_v53 (q : Fin 128) :
    W3 m ρ c (Proc.devRef .tc main_v53) (ix2 (0 : Fin 1) q) = Cert.ReferenceIdeal.Read.val_main_v44 (F := Ideal) (m ((c.tc : Thread nD τ).loc main_arg3)) (ix1 q) := by
  have h : W3 m ρ c (Proc.devRef .tc main_v53) = shapeCast S1x128 (Cert.ReferenceIdeal.Read.val_main_v44 (F := Ideal) (m ((c.tc : Thread nD τ).loc main_arg3))) shapeCasts_S128_S1x128 := by
    show StableHlo.after hostOps1 (W2 m ρ c) (Proc.devRef .tc main_v53) = _
    dsimp only [hostOps1]
    after_results_simp
    rw [k2_main_arg3 m ρ c]
    rfl
  rw [h]
  exact shapeCast_a_1a_apply (a := 128) _ shapeCasts_S128_S1x128 (0 : Fin 1) q

/-- A parameter row at column `q` is the parameter's slice at `q`. -/
theorem k3_main_v54 (q : Fin 128) :
    W3 m ρ c (Proc.devRef .tc main_v54) (ix2 (0 : Fin 1) q) = Cert.ReferenceIdeal.Read.val_main_v62 (F := Ideal) (m ((c.tc : Thread nD τ).loc main_arg4)) (ix1 q) := by
  have h : W3 m ρ c (Proc.devRef .tc main_v54) = shapeCast S1x128 (Cert.ReferenceIdeal.Read.val_main_v62 (F := Ideal) (m ((c.tc : Thread nD τ).loc main_arg4))) shapeCasts_S128_S1x128 := by
    show StableHlo.after hostOps1 (W2 m ρ c) (Proc.devRef .tc main_v54) = _
    dsimp only [hostOps1]
    after_results_simp
    rw [k2_main_arg4 m ρ c]
    rfl
  rw [h]
  exact shapeCast_a_1a_apply (a := 128) _ shapeCasts_S128_S1x128 (0 : Fin 1) q

/-- A parameter row at column `q` is the parameter's slice at `q`. -/
theorem k3_main_v55 (q : Fin 128) :
    W3 m ρ c (Proc.devRef .tc main_v55) (ix2 (0 : Fin 1) q) = Cert.ReferenceIdeal.Read.val_main_v67 (F := Ideal) (m ((c.tc : Thread nD τ).loc main_arg5)) (ix1 q) := by
  have h : W3 m ρ c (Proc.devRef .tc main_v55) = shapeCast S1x128 (Cert.ReferenceIdeal.Read.val_main_v67 (F := Ideal) (m ((c.tc : Thread nD τ).loc main_arg5))) shapeCasts_S128_S1x128 := by
    show StableHlo.after hostOps1 (W2 m ρ c) (Proc.devRef .tc main_v55) = _
    dsimp only [hostOps1]
    after_results_simp
    rw [k2_main_arg5 m ρ c]
    rfl
  rw [h]
  exact shapeCast_a_1a_apply (a := 128) _ shapeCasts_S128_S1x128 (0 : Fin 1) q

/-- A parameter row at column `q` is the parameter's slice at `q`. -/
theorem k3_main_v56 (q : Fin 128) :
    W3 m ρ c (Proc.devRef .tc main_v56) (ix2 (0 : Fin 1) q) = Cert.ReferenceIdeal.Read.val_main_v49 (F := Ideal) (m ((c.tc : Thread nD τ).loc main_arg6)) (ix1 q) := by
  have h : W3 m ρ c (Proc.devRef .tc main_v56) = shapeCast S1x128 (Cert.ReferenceIdeal.Read.val_main_v49 (F := Ideal) (m ((c.tc : Thread nD τ).loc main_arg6))) shapeCasts_S128_S1x128 := by
    show StableHlo.after hostOps1 (W2 m ρ c) (Proc.devRef .tc main_v56) = _
    dsimp only [hostOps1]
    after_results_simp
    rw [k2_main_arg6 m ρ c]
    rfl
  rw [h]
  exact shapeCast_a_1a_apply (a := 128) _ shapeCasts_S128_S1x128 (0 : Fin 1) q

/-- A parameter row at column `q` is the parameter's slice at `q`. -/
theorem k3_main_v57 (q : Fin 128) :
    W3 m ρ c (Proc.devRef .tc main_v57) (ix2 (0 : Fin 1) q) = Cert.ReferenceIdeal.Read.val_main_v54 (F := Ideal) (m ((c.tc : Thread nD τ).loc main_arg7)) (ix1 q) := by
  have h : W3 m ρ c (Proc.devRef .tc main_v57) = shapeCast S1x128 (Cert.ReferenceIdeal.Read.val_main_v54 (F := Ideal) (m ((c.tc : Thread nD τ).loc main_arg7))) shapeCasts_S128_S1x128 := by
    show StableHlo.after hostOps1 (W2 m ρ c) (Proc.devRef .tc main_v57) = _
    dsimp only [hostOps1]
    after_results_simp
    rw [k2_main_arg7 m ρ c]
    rfl
  rw [h]
  exact shapeCast_a_1a_apply (a := 128) _ shapeCasts_S128_S1x128 (0 : Fin 1) q

/-- The normalisation region leaves the stage, which is the reference's output of this layer. -/
theorem k4_main_v58 : W4 m ρ c (Proc.devRef .tc main_v58) = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 6).trans ((Cert.KernelIdeal.RegionsNorm.final1 (V3 m ρ) c (Cert.ReferenceIdeal.Read.val_main_v44 (F := Ideal) (m ((c.tc : Thread nD τ).loc main_arg3))) (Cert.ReferenceIdeal.Read.val_main_v62 (F := Ideal) (m ((c.tc : Thread nD τ).loc main_arg4))) (Cert.ReferenceIdeal.Read.val_main_v67 (F := Ideal) (m ((c.tc : Thread nD τ).loc main_arg5))) (Cert.ReferenceIdeal.Read.val_main_v49 (F := Ideal) (m ((c.tc : Thread nD τ).loc main_arg6))) (Cert.ReferenceIdeal.Read.val_main_v54 (F := Ideal) (m ((c.tc : Thread nD τ).loc main_arg7))) (k3_main_v53 m ρ c) (k3_main_v54 m ρ c) (k3_main_v55 m ρ c) (k3_main_v56 m ρ c) (k3_main_v57 m ρ c)).trans ?_)
  show Cert.NormRelu.normRelu (M := 100000) (N := 128) 0x3727C5AC#32 (W3 m ρ c (Proc.devRef .tc main_v42)) (Cert.ReferenceIdeal.Read.val_main_v44 (F := Ideal) (m ((c.tc : Thread nD τ).loc main_arg3))) (Cert.ReferenceIdeal.Read.val_main_v62 (F := Ideal) (m ((c.tc : Thread nD τ).loc main_arg4))) (Cert.ReferenceIdeal.Read.val_main_v67 (F := Ideal) (m ((c.tc : Thread nD τ).loc main_arg5))) (Cert.ReferenceIdeal.Read.val_main_v49 (F := Ideal) (m ((c.tc : Thread nD τ).loc main_arg6))) (Cert.ReferenceIdeal.Read.val_main_v54 (F := Ideal) (m ((c.tc : Thread nD τ).loc main_arg7))) = _
  rw [k3_main_v42 m ρ c]
  exact (Cert.ReferenceIdeal.Stages.norm1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

/-! ## Layer 2 -/

/-- The previous layer's output is still there when the weight slice has been taken. -/
theorem k5_main_v58 : W5 m ρ c (Proc.devRef .tc main_v58) = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine Eq.trans ?_ (k4_main_v58 m ρ c)
  show StableHlo.after hostOps2 (W4 m ρ c) (Proc.devRef .tc main_v58) = _
  dsimp only [hostOps2]
  after_results_simp

/-- This layer's weight slice. -/
theorem k5_main_v60 : W5 m ρ c (Proc.devRef .tc main_v60) = Cert.ReferenceIdeal.Read.val_main_v73 (F := Ideal) (m ((c.tc : Thread nD τ).loc main_arg2)) := by
  show StableHlo.after hostOps2 (W4 m ρ c) (Proc.devRef .tc main_v60) = _
  dsimp only [hostOps2]
  after_results_simp
  rw [k4_main_arg2 m ρ c]
  rfl

/-- The linear map's region leaves the product, which is the reference's linear map of this layer. -/
theorem k6_main_v61 : W6 m ρ c (Proc.devRef .tc main_v61) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 2).trans ((Cert.KernelIdeal.RegionsProd.final2 (V5 m ρ) c).trans ?_)
  show Cert.MatProd.prod (M := 100000) (K := 128) (N := 128) (W5 m ρ c (Proc.devRef .tc main_v58)) (W5 m ρ c (Proc.devRef .tc main_v60)) = _
  rw [k5_main_v58 m ρ c, k5_main_v60 m ρ c]
  exact (Cert.ReferenceIdeal.Stages.linear2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

/-- The aggregation: gather the product's rows along the edges, scale by the edge weights, scatter-add. -/
theorem k7_main_v74 : W7 m ρ c (Proc.devRef .tc main_v74) = Cert.ReferenceIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (W6 m ρ c) (Proc.devRef .tc main_v74) = _
  dsimp only [hostOps3]
  after_results_simp
  rw [k6_main_v3 m ρ c, k6_main_v6 m ρ c, k6_main_v26 m ρ c, k6_main_v61 m ρ c]
  rfl

/-- A parameter row at column `q` is the parameter's slice at `q`. -/
theorem k7_main_v85 (q : Fin 128) :
    W7 m ρ c (Proc.devRef .tc main_v85) (ix2 (0 : Fin 1) q) = Cert.ReferenceIdeal.Read.val_main_v89 (F := Ideal) (m ((c.tc : Thread nD τ).loc main_arg3)) (ix1 q) := by
  have h : W7 m ρ c (Proc.devRef .tc main_v85) = shapeCast S1x128 (Cert.ReferenceIdeal.Read.val_main_v89 (F := Ideal) (m ((c.tc : Thread nD τ).loc main_arg3))) shapeCasts_S128_S1x128 := by
    show StableHlo.after hostOps3 (W6 m ρ c) (Proc.devRef .tc main_v85) = _
    dsimp only [hostOps3]
    after_results_simp
    rw [k6_main_arg3 m ρ c]
    rfl
  rw [h]
  exact shapeCast_a_1a_apply (a := 128) _ shapeCasts_S128_S1x128 (0 : Fin 1) q

/-- A parameter row at column `q` is the parameter's slice at `q`. -/
theorem k7_main_v86 (q : Fin 128) :
    W7 m ρ c (Proc.devRef .tc main_v86) (ix2 (0 : Fin 1) q) = Cert.ReferenceIdeal.Read.val_main_v107 (F := Ideal) (m ((c.tc : Thread nD τ).loc main_arg4)) (ix1 q) := by
  have h : W7 m ρ c (Proc.devRef .tc main_v86) = shapeCast S1x128 (Cert.ReferenceIdeal.Read.val_main_v107 (F := Ideal) (m ((c.tc : Thread nD τ).loc main_arg4))) shapeCasts_S128_S1x128 := by
    show StableHlo.after hostOps3 (W6 m ρ c) (Proc.devRef .tc main_v86) = _
    dsimp only [hostOps3]
    after_results_simp
    rw [k6_main_arg4 m ρ c]
    rfl
  rw [h]
  exact shapeCast_a_1a_apply (a := 128) _ shapeCasts_S128_S1x128 (0 : Fin 1) q

/-- A parameter row at column `q` is the parameter's slice at `q`. -/
theorem k7_main_v87 (q : Fin 128) :
    W7 m ρ c (Proc.devRef .tc main_v87) (ix2 (0 : Fin 1) q) = Cert.ReferenceIdeal.Read.val_main_v112 (F := Ideal) (m ((c.tc : Thread nD τ).loc main_arg5)) (ix1 q) := by
  have h : W7 m ρ c (Proc.devRef .tc main_v87) = shapeCast S1x128 (Cert.ReferenceIdeal.Read.val_main_v112 (F := Ideal) (m ((c.tc : Thread nD τ).loc main_arg5))) shapeCasts_S128_S1x128 := by
    show StableHlo.after hostOps3 (W6 m ρ c) (Proc.devRef .tc main_v87) = _
    dsimp only [hostOps3]
    after_results_simp
    rw [k6_main_arg5 m ρ c]
    rfl
  rw [h]
  exact shapeCast_a_1a_apply (a := 128) _ shapeCasts_S128_S1x128 (0 : Fin 1) q

/-- A parameter row at column `q` is the parameter's slice at `q`. -/
theorem k7_main_v88 (q : Fin 128) :
    W7 m ρ c (Proc.devRef .tc main_v88) (ix2 (0 : Fin 1) q) = Cert.ReferenceIdeal.Read.val_main_v94 (F := Ideal) (m ((c.tc : Thread nD τ).loc main_arg6)) (ix1 q) := by
  have h : W7 m ρ c (Proc.devRef .tc main_v88) = shapeCast S1x128 (Cert.ReferenceIdeal.Read.val_main_v94 (F := Ideal) (m ((c.tc : Thread nD τ).loc main_arg6))) shapeCasts_S128_S1x128 := by
    show StableHlo.after hostOps3 (W6 m ρ c) (Proc.devRef .tc main_v88) = _
    dsimp only [hostOps3]
    after_results_simp
    rw [k6_main_arg6 m ρ c]
    rfl
  rw [h]
  exact shapeCast_a_1a_apply (a := 128) _ shapeCasts_S128_S1x128 (0 : Fin 1) q

/-- A parameter row at column `q` is the parameter's slice at `q`. -/
theorem k7_main_v89 (q : Fin 128) :
    W7 m ρ c (Proc.devRef .tc main_v89) (ix2 (0 : Fin 1) q) = Cert.ReferenceIdeal.Read.val_main_v99 (F := Ideal) (m ((c.tc : Thread nD τ).loc main_arg7)) (ix1 q) := by
  have h : W7 m ρ c (Proc.devRef .tc main_v89) = shapeCast S1x128 (Cert.ReferenceIdeal.Read.val_main_v99 (F := Ideal) (m ((c.tc : Thread nD τ).loc main_arg7))) shapeCasts_S128_S1x128 := by
    show StableHlo.after hostOps3 (W6 m ρ c) (Proc.devRef .tc main_v89) = _
    dsimp only [hostOps3]
    after_results_simp
    rw [k6_main_arg7 m ρ c]
    rfl
  rw [h]
  exact shapeCast_a_1a_apply (a := 128) _ shapeCasts_S128_S1x128 (0 : Fin 1) q

/-- The previous layer's output is still there when this layer's normalisation region is entered. -/
theorem k7_main_v58 : W7 m ρ c (Proc.devRef .tc main_v58) = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine Eq.trans ?_ (((W6_arr m ρ c 0).trans (((dat2 (V5 m ρ) c).arrAt_in 0 rfl _).trans (A_eq2 (V5 m ρ) c 0))).trans (k5_main_v58 m ρ c))
  show StableHlo.after hostOps3 (W6 m ρ c) (Proc.devRef .tc main_v58) = _
  dsimp only [hostOps3]
  after_results_simp

/-- The normalisation region leaves the stage, which is the reference's output of this layer. -/
theorem k8_main_v90 : W8 m ρ c (Proc.devRef .tc main_v90) = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 7).trans ((Cert.KernelIdeal.RegionsNorm.final3 (V7 m ρ) c (Cert.ReferenceIdeal.Read.val_main_v89 (F := Ideal) (m ((c.tc : Thread nD τ).loc main_arg3))) (Cert.ReferenceIdeal.Read.val_main_v107 (F := Ideal) (m ((c.tc : Thread nD τ).loc main_arg4))) (Cert.ReferenceIdeal.Read.val_main_v112 (F := Ideal) (m ((c.tc : Thread nD τ).loc main_arg5))) (Cert.ReferenceIdeal.Read.val_main_v94 (F := Ideal) (m ((c.tc : Thread nD τ).loc main_arg6))) (Cert.ReferenceIdeal.Read.val_main_v99 (F := Ideal) (m ((c.tc : Thread nD τ).loc main_arg7))) (k7_main_v85 m ρ c) (k7_main_v86 m ρ c) (k7_main_v87 m ρ c) (k7_main_v88 m ρ c) (k7_main_v89 m ρ c)).trans ?_)
  show Cert.NormRelu.normReluRes (M := 100000) (N := 128) 0x3727C5AC#32 (W7 m ρ c (Proc.devRef .tc main_v74)) (Cert.ReferenceIdeal.Read.val_main_v89 (F := Ideal) (m ((c.tc : Thread nD τ).loc main_arg3))) (Cert.ReferenceIdeal.Read.val_main_v107 (F := Ideal) (m ((c.tc : Thread nD τ).loc main_arg4))) (Cert.ReferenceIdeal.Read.val_main_v112 (F := Ideal) (m ((c.tc : Thread nD τ).loc main_arg5))) (Cert.ReferenceIdeal.Read.val_main_v94 (F := Ideal) (m ((c.tc : Thread nD τ).loc main_arg6))) (Cert.ReferenceIdeal.Read.val_main_v99 (F := Ideal) (m ((c.tc : Thread nD τ).loc main_arg7))) (W7 m ρ c (Proc.devRef .tc main_v58)) = _
  rw [k7_main_v74 m ρ c, k7_main_v58 m ρ c]
  exact (Cert.ReferenceIdeal.Stages.norm2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

/-! ## Layer 3 -/

/-- The previous layer's output is still there when the weight slice has been taken. -/
theorem k9_main_v90 : W9 m ρ c (Proc.devRef .tc main_v90) = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine Eq.trans ?_ (k8_main_v90 m ρ c)
  show StableHlo.after hostOps4 (W8 m ρ c) (Proc.devRef .tc main_v90) = _
  dsimp only [hostOps4]
  after_results_simp

/-- This layer's weight slice. -/
theorem k9_main_v92 : W9 m ρ c (Proc.devRef .tc main_v92) = Cert.ReferenceIdeal.Read.val_main_v119 (F := Ideal) (m ((c.tc : Thread nD τ).loc main_arg2)) := by
  show StableHlo.after hostOps4 (W8 m ρ c) (Proc.devRef .tc main_v92) = _
  dsimp only [hostOps4]
  after_results_simp
  rw [k8_main_arg2 m ρ c]
  rfl

/-- The linear map's region leaves the product, which is the reference's linear map of this layer. -/
theorem k10_main_v93 : W10 m ρ c (Proc.devRef .tc main_v93) = Cert.ReferenceIdeal.Read.val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W10_arr m ρ c 2).trans ((Cert.KernelIdeal.RegionsProd.final4 (V9 m ρ) c).trans ?_)
  show Cert.MatProd.prod (M := 100000) (K := 128) (N := 128) (W9 m ρ c (Proc.devRef .tc main_v90)) (W9 m ρ c (Proc.devRef .tc main_v92)) = _
  rw [k9_main_v90 m ρ c, k9_main_v92 m ρ c]
  exact (Cert.ReferenceIdeal.Stages.linear3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

/-- The aggregation: gather the product's rows along the edges, scale by the edge weights, scatter-add. -/
theorem k11_main_v106 : W11 m ρ c (Proc.devRef .tc main_v106) = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps5 (W10 m ρ c) (Proc.devRef .tc main_v106) = _
  dsimp only [hostOps5]
  after_results_simp
  rw [k10_main_v3 m ρ c, k10_main_v6 m ρ c, k10_main_v26 m ρ c, k10_main_v93 m ρ c]
  rfl

/-- A parameter row at column `q` is the parameter's slice at `q`. -/
theorem k11_main_v117 (q : Fin 128) :
    W11 m ρ c (Proc.devRef .tc main_v117) (ix2 (0 : Fin 1) q) = Cert.ReferenceIdeal.Read.val_main_v135 (F := Ideal) (m ((c.tc : Thread nD τ).loc main_arg3)) (ix1 q) := by
  have h : W11 m ρ c (Proc.devRef .tc main_v117) = shapeCast S1x128 (Cert.ReferenceIdeal.Read.val_main_v135 (F := Ideal) (m ((c.tc : Thread nD τ).loc main_arg3))) shapeCasts_S128_S1x128 := by
    show StableHlo.after hostOps5 (W10 m ρ c) (Proc.devRef .tc main_v117) = _
    dsimp only [hostOps5]
    after_results_simp
    rw [k10_main_arg3 m ρ c]
    rfl
  rw [h]
  exact shapeCast_a_1a_apply (a := 128) _ shapeCasts_S128_S1x128 (0 : Fin 1) q

/-- A parameter row at column `q` is the parameter's slice at `q`. -/
theorem k11_main_v118 (q : Fin 128) :
    W11 m ρ c (Proc.devRef .tc main_v118) (ix2 (0 : Fin 1) q) = Cert.ReferenceIdeal.Read.val_main_v153 (F := Ideal) (m ((c.tc : Thread nD τ).loc main_arg4)) (ix1 q) := by
  have h : W11 m ρ c (Proc.devRef .tc main_v118) = shapeCast S1x128 (Cert.ReferenceIdeal.Read.val_main_v153 (F := Ideal) (m ((c.tc : Thread nD τ).loc main_arg4))) shapeCasts_S128_S1x128 := by
    show StableHlo.after hostOps5 (W10 m ρ c) (Proc.devRef .tc main_v118) = _
    dsimp only [hostOps5]
    after_results_simp
    rw [k10_main_arg4 m ρ c]
    rfl
  rw [h]
  exact shapeCast_a_1a_apply (a := 128) _ shapeCasts_S128_S1x128 (0 : Fin 1) q

/-- A parameter row at column `q` is the parameter's slice at `q`. -/
theorem k11_main_v119 (q : Fin 128) :
    W11 m ρ c (Proc.devRef .tc main_v119) (ix2 (0 : Fin 1) q) = Cert.ReferenceIdeal.Read.val_main_v158 (F := Ideal) (m ((c.tc : Thread nD τ).loc main_arg5)) (ix1 q) := by
  have h : W11 m ρ c (Proc.devRef .tc main_v119) = shapeCast S1x128 (Cert.ReferenceIdeal.Read.val_main_v158 (F := Ideal) (m ((c.tc : Thread nD τ).loc main_arg5))) shapeCasts_S128_S1x128 := by
    show StableHlo.after hostOps5 (W10 m ρ c) (Proc.devRef .tc main_v119) = _
    dsimp only [hostOps5]
    after_results_simp
    rw [k10_main_arg5 m ρ c]
    rfl
  rw [h]
  exact shapeCast_a_1a_apply (a := 128) _ shapeCasts_S128_S1x128 (0 : Fin 1) q

/-- A parameter row at column `q` is the parameter's slice at `q`. -/
theorem k11_main_v120 (q : Fin 128) :
    W11 m ρ c (Proc.devRef .tc main_v120) (ix2 (0 : Fin 1) q) = Cert.ReferenceIdeal.Read.val_main_v140 (F := Ideal) (m ((c.tc : Thread nD τ).loc main_arg6)) (ix1 q) := by
  have h : W11 m ρ c (Proc.devRef .tc main_v120) = shapeCast S1x128 (Cert.ReferenceIdeal.Read.val_main_v140 (F := Ideal) (m ((c.tc : Thread nD τ).loc main_arg6))) shapeCasts_S128_S1x128 := by
    show StableHlo.after hostOps5 (W10 m ρ c) (Proc.devRef .tc main_v120) = _
    dsimp only [hostOps5]
    after_results_simp
    rw [k10_main_arg6 m ρ c]
    rfl
  rw [h]
  exact shapeCast_a_1a_apply (a := 128) _ shapeCasts_S128_S1x128 (0 : Fin 1) q

/-- A parameter row at column `q` is the parameter's slice at `q`. -/
theorem k11_main_v121 (q : Fin 128) :
    W11 m ρ c (Proc.devRef .tc main_v121) (ix2 (0 : Fin 1) q) = Cert.ReferenceIdeal.Read.val_main_v145 (F := Ideal) (m ((c.tc : Thread nD τ).loc main_arg7)) (ix1 q) := by
  have h : W11 m ρ c (Proc.devRef .tc main_v121) = shapeCast S1x128 (Cert.ReferenceIdeal.Read.val_main_v145 (F := Ideal) (m ((c.tc : Thread nD τ).loc main_arg7))) shapeCasts_S128_S1x128 := by
    show StableHlo.after hostOps5 (W10 m ρ c) (Proc.devRef .tc main_v121) = _
    dsimp only [hostOps5]
    after_results_simp
    rw [k10_main_arg7 m ρ c]
    rfl
  rw [h]
  exact shapeCast_a_1a_apply (a := 128) _ shapeCasts_S128_S1x128 (0 : Fin 1) q

/-- The previous layer's output is still there when this layer's normalisation region is entered. -/
theorem k11_main_v90 : W11 m ρ c (Proc.devRef .tc main_v90) = Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine Eq.trans ?_ (((W10_arr m ρ c 0).trans (((dat4 (V9 m ρ) c).arrAt_in 0 rfl _).trans (A_eq4 (V9 m ρ) c 0))).trans (k9_main_v90 m ρ c))
  show StableHlo.after hostOps5 (W10 m ρ c) (Proc.devRef .tc main_v90) = _
  dsimp only [hostOps5]
  after_results_simp

/-- The normalisation region leaves the stage, which is the reference's output of this layer. -/
theorem k12_main_v122 : W12 m ρ c (Proc.devRef .tc main_v122) = Cert.ReferenceIdeal.Read.val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 7).trans ((Cert.KernelIdeal.RegionsNorm.final5 (V11 m ρ) c (Cert.ReferenceIdeal.Read.val_main_v135 (F := Ideal) (m ((c.tc : Thread nD τ).loc main_arg3))) (Cert.ReferenceIdeal.Read.val_main_v153 (F := Ideal) (m ((c.tc : Thread nD τ).loc main_arg4))) (Cert.ReferenceIdeal.Read.val_main_v158 (F := Ideal) (m ((c.tc : Thread nD τ).loc main_arg5))) (Cert.ReferenceIdeal.Read.val_main_v140 (F := Ideal) (m ((c.tc : Thread nD τ).loc main_arg6))) (Cert.ReferenceIdeal.Read.val_main_v145 (F := Ideal) (m ((c.tc : Thread nD τ).loc main_arg7))) (k11_main_v117 m ρ c) (k11_main_v118 m ρ c) (k11_main_v119 m ρ c) (k11_main_v120 m ρ c) (k11_main_v121 m ρ c)).trans ?_)
  show Cert.NormRelu.normReluRes (M := 100000) (N := 128) 0x3727C5AC#32 (W11 m ρ c (Proc.devRef .tc main_v106)) (Cert.ReferenceIdeal.Read.val_main_v135 (F := Ideal) (m ((c.tc : Thread nD τ).loc main_arg3))) (Cert.ReferenceIdeal.Read.val_main_v153 (F := Ideal) (m ((c.tc : Thread nD τ).loc main_arg4))) (Cert.ReferenceIdeal.Read.val_main_v158 (F := Ideal) (m ((c.tc : Thread nD τ).loc main_arg5))) (Cert.ReferenceIdeal.Read.val_main_v140 (F := Ideal) (m ((c.tc : Thread nD τ).loc main_arg6))) (Cert.ReferenceIdeal.Read.val_main_v145 (F := Ideal) (m ((c.tc : Thread nD τ).loc main_arg7))) (W11 m ρ c (Proc.devRef .tc main_v90)) = _
  rw [k11_main_v106 m ρ c, k11_main_v90 m ρ c]
  exact (Cert.ReferenceIdeal.Stages.norm3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

end Cert.KernelIdeal.Fold

end
-- ==== Proof.lean ====
/-
  A three-layer graph convolution network over 100000 nodes with 128 features and 1600000 edges (self loops appended):
  each layer is a linear map `x · W`, an aggregation along the edges (gather the rows at the edges' sources, scale by
  the symmetric degree normalisation, scatter-add at the destinations), then batch normalisation with running
  statistics, a clamp at zero and, from the second layer on, the layer's input added back.

  The kernel computes the linear map and the normalisation stage in six tiled regions (25 row blocks of 4000 rows
  each) and leaves the aggregation to host operations; the reference is host operations throughout. Over the extended
  reals the two agree with no use of the precondition: a row block of a matrix product is the product of the row block
  (the change of float format inside the kernel's product is the identity), the normalisation stage is entrywise, and
  the host operations between the regions are the same operations of the same operands in both programs.

  The kernel's result is read off the fold of its segments (Proof/KernelRun.lean, Proof/KernelFold.lean) through each
  region's whole-array form (Proof/RegionsProd.lean, Proof/RegionsNorm.lean), against the reference's stages
  (Proof/RefStages.lean); the two stage functions are Proof/LibMatProd.lean and Proof/LibNormRelu.lean.
-/
import proofs.«171728_j62122406969972_1_alg».proof.Defs
import proofs.«171728_j62122406969972_1_alg».proof.Proof.Gen.Kernel
import proofs.«171728_j62122406969972_1_alg».proof.Proof.Gen.Kernel.Skeleton
import proofs.«171728_j62122406969972_1_alg».proof.Proof.Gen.Kernel.Launch
import proofs.«171728_j62122406969972_1_alg».proof.Proof.Gen.Kernel.Points
import proofs.«171728_j62122406969972_1_alg».proof.Proof.Gen.Kernel.Frame
import proofs.«171728_j62122406969972_1_alg».proof.Proof.Gen.KernelIdeal
import proofs.«171728_j62122406969972_1_alg».proof.Proof.Gen.KernelIdeal.Skeleton
import proofs.«171728_j62122406969972_1_alg».proof.Proof.Gen.KernelIdeal.Launch
import proofs.«171728_j62122406969972_1_alg».proof.Proof.Gen.KernelIdeal.Points
import proofs.«171728_j62122406969972_1_alg».proof.Proof.Gen.KernelIdeal.Frame
import proofs.«171728_j62122406969972_1_alg».proof.Proof.Gen.ReferenceIdeal
import proofs.«171728_j62122406969972_1_alg».proof.Proof.Gen.Pre_finite_inputs
import proofs.«171728_j62122406969972_1_alg».proof.Proof.Gen.ReferenceIdeal.Run
import proofs.«171728_j62122406969972_1_alg».proof.Proof.Gen.ReferenceIdeal.Read
import proofs.«171728_j62122406969972_1_alg».proof.Proof.KernelRun
import proofs.«171728_j62122406969972_1_alg».proof.Proof.KernelFold
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run with its result at the network's function of the arguments: the last boundary's
    contents at the result buffer are the reference's last stage of the launch contents. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v122)
        = Cert.ReferenceIdeal.Read.val_main_v163 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c).1.trans (Cert.KernelIdeal.Fold.k12_main_v122 m ρ c), (h c).2⟩)
    (Cert.KernelIdeal.Result.run (F := Ideal) m ρ)

/-- From memories that agree on the arguments both programs end with the same result: the kernel's by `kernel_value`,
    the reference's by its run, whose term is its last stage of ITS launch contents, which are the kernel's. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v163_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
